-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_t" .f32 0x41200000#32 ((134217728 / 13421773 : ℝ) : EReal)
  ∧ IdealRules.named_const.Statement Cert.KernelIdeal.κ "inv_t" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S1024x128 : Shape := ⟨2, ![1024, 128]⟩
abbrev S1024 : Shape := ⟨1, ![1024]⟩
abbrev S1024x1 : Shape := ⟨2, ![1024, 1]⟩
abbrev S8192x128 : Shape := ⟨2, ![8192, 128]⟩
abbrev S8192 : Shape := ⟨1, ![8192]⟩
abbrev S128x128 : Shape := ⟨2, ![128, 128]⟩
abbrev S128 : Shape := ⟨1, ![128]⟩
abbrev S128x1 : Shape := ⟨2, ![128, 1]⟩
abbrev S128x8192 : Shape := ⟨2, ![128, 8192]⟩
abbrev S_ : Shape := ⟨0, ![]⟩

abbrev nBuf : Space → Nat
  | .hbm => 10
  | .vmem => 13
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S4096x128, .f32⟩
  | .hbm, ⟨4, _⟩ => ⟨S8192x128, .f32⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S128x128, .f32⟩
  | .local _ .vmem, ⟨9, _⟩ => ⟨S128x128, .f32⟩
  | .local _ .vmem, ⟨10, _⟩ => ⟨S8192x128, .f32⟩
  | .local _ .vmem, ⟨11, _⟩ => ⟨S128, .f32⟩
  | .local _ .vmem, ⟨12, _⟩ => ⟨S128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S128x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S1024x128_S1024x128_0_0 : ∀ a, (![0, 0] : Fin 2 → Nat) a + S1024x128.size a ≤ S1024x128.size a
  h_S1024x128 : 0 < S1024x128.numel
  reduces_S1024x128_S1024 : S1024x128.Reduces [1] S1024
  shapeCasts_S1024_S1024x1 : S1024.ShapeCasts S1024x1
  broadcasts_S1024x1_S1024x128 : S1024x1.Broadcasts S1024x128
  concatenates_S4096x128_S4096x128_S8192x128_d0 : Shape.Concatenates [S4096x128, S4096x128] S8192x128 0
  iota_S128x1_d0_w32 : S128x1.Iotas .tc 32 [0]
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  transposes_S8192x128_p1_0_S128x8192 : S8192x128.Transposes [1, 0] S128x8192
  iota_S128x8192_d1_w32 : S128x8192.Iotas .tc 32 [1]
  broadcasts_S128x1_S128x8192 : S128x1.Broadcasts S128x8192
  reduces_S128x8192_S128 : S128x8192.Reduces [1] S128
  inb_S128_S128_0 : ∀ a, (![0] : Fin 1 → Nat) a + S128.size a ≤ S128.size a
  h_S128 : 0 < S128.numel
  reducesTo_S8192_S_d0 : S8192.ReducesTo [0] S_
  h_S_ : 0 < S_.numel
  dot_S128x128_S128x8192_S128x8192_1_0_0_1_n_n_wf : DotDims.WF S128x128 S128x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S4096x128.size a
  hwx0_0 : ∀ i : grid0.Coords, EltTy.bits .f32 = 32 ∨ (Rect.block (s := S4096x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S4096x128.size a
  hwx0_1 : ∀ i : grid0.Coords, EltTy.bits .f32 = 32 ∨ (Rect.block (s := S4096x128) S1024x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S4096x128.size a
  hwx1_0 : ∀ i : grid1.Coords, EltTy.bits .f32 = 32 ∨ (Rect.block (s := S4096x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x128.size a
  hwx1_1 : ∀ i : grid1.Coords, EltTy.bits .f32 = 32 ∨ (Rect.block (s := S4096x128) S1024x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x128.size a ≤ S8192x128.size a
  hwx2_0 : ∀ i : grid2.Coords, EltTy.bits .f32 = 32 ∨ (Rect.block (s := S8192x128) S128x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S8192x128.size a
  hwx2_1 : ∀ i : grid2.Coords, EltTy.bits .f32 = 32 ∨ (Rect.block (s := S8192x128) S8192x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S8192.size a
  hwx2_2 : ∀ i : grid2.Coords, EltTy.bits .f32 = 32 ∨ (Rect.block (s := S8192) S128.size (cc2_transform_2 i) (hinb2_2 i)).WholeWords (EltTy.packing .f32)

variable [Facts₀]

def dot_S128x128_S128x8192_S128x8192_1_0_0_1_n_n : DotDims S128x128 S128x8192 S128x8192 where
  lhsContracting := [1]
  rhsContracting := [0]
  lhsNonContracting := [0]
  rhsNonContracting := [1]
  lhsBatch := []
  rhsBatch := []
  wf := dot_S128x128_S128x8192_S128x8192_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v2) S128x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S8192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S8192x128 : Shape := ⟨2, ![8192, 128]⟩
abbrev S128x8192 : Shape := ⟨2, ![128, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 95
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S8192x128, .f32⟩
  | .hbm, ⟨23, _⟩ => ⟨S128x8192, .f32⟩
  | .hbm, ⟨24, _⟩ => ⟨S8192x8192, .f32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096x1, .i32⟩
  | .hbm, ⟨45, _⟩ => ⟨S4096x2, .i32⟩
  | .hbm, ⟨46, _⟩ => ⟨S4096, .f32⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S4096x1, .i32⟩
  | .hbm, ⟨66, _⟩ => ⟨S4096x2, .i32⟩
  | .hbm, ⟨67, _⟩ => ⟨S4096, .f32⟩
  | .hbm, ⟨68, _⟩ => ⟨S8192, .f32⟩
  | .hbm, ⟨69, _⟩ => ⟨S8192x8192, .i32⟩
  | .hbm, ⟨70, _⟩ => ⟨S8192x8192, .i32⟩
  | .hbm, ⟨71, _⟩ => ⟨S_, .i32⟩
  | .hbm, ⟨72, _⟩ => ⟨S8192x8192, .i32⟩
  | .hbm, ⟨73, _⟩ => ⟨S8192x8192, .i32⟩
  | .hbm, ⟨74, _⟩ => ⟨S8192x8192, .i1⟩
  | .hbm, ⟨75, _⟩ => ⟨S8192x8192, .f32⟩
  | .hbm, ⟨76, _⟩ => ⟨S_, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S8192x8192, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S_, .f32⟩
  | .hbm, ⟨88, _⟩ => ⟨S8192, .f32⟩
  | .hbm, ⟨89, _⟩ => ⟨S8192, .f32⟩
  | .hbm, ⟨90, _⟩ => ⟨S8192, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_7 : Ref sig .tc := ⟨.hbm, 47, rfl⟩
abbrev main_v36 : Ref sig .tc := ⟨.hbm, 48, rfl⟩
abbrev main_v37 : Ref sig .tc := ⟨.hbm, 49, rfl⟩
abbrev main_c_8 : Ref sig .tc := ⟨.hbm, 50, rfl⟩
abbrev main_v38 : Ref sig .tc := ⟨.hbm, 51, rfl⟩
abbrev main_v39 : Ref sig .tc := ⟨.hbm, 52, rfl⟩
abbrev main_c_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_10 : Ref sig .tc := ⟨.hbm, 57, rfl⟩
abbrev main_v43 : Ref sig .tc := ⟨.hbm, 58, rfl⟩
abbrev main_v44 : Ref sig .tc := ⟨.hbm, 59, rfl⟩
abbrev main_c_11 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_12 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_13 : Ref sig .tc := ⟨.hbm, 76, rfl⟩
abbrev main_v59 : Ref sig .tc := ⟨.hbm, 77, rfl⟩
abbrev main_v60 : Ref sig .tc := ⟨.hbm, 78, rfl⟩
abbrev main_cst_14 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_15 : Ref sig .tc := ⟨.hbm, 84, rfl⟩
abbrev main_v65 : Ref sig .tc := ⟨.hbm, 85, rfl⟩
abbrev main_v66 : Ref sig .tc := ⟨.hbm, 86, rfl⟩
abbrev main_cst_16 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_17 : Ref sig .tc := ⟨.hbm, 91, rfl⟩
abbrev main_v70 : Ref sig .tc := ⟨.hbm, 92, rfl⟩
abbrev main_cst_18 : Ref sig .tc := ⟨.hbm, 93, rfl⟩
abbrev main_v71 : Ref sig .tc := ⟨.hbm, 94, rfl⟩

abbrev nD : Nat := 1
abbrev τ : Topo := Topo.v7x

variable {F : FTy → Type} [FloatOps F]

class Facts₀ : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x128_0_1 : S4096x1.BroadcastsInDim S4096x128 (![0, 1] : Fin 2 → Fin S4096x128.rank)
  concatenates_S4096x128_S4096x128_S8192x128_d0 : Shape.Concatenates [S4096x128, S4096x128] S8192x128 0
  transposes_S8192x128_S128x8192_1_0 : S8192x128.Transposes [1, 0] S128x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.KBody0.lean ====
/-
  The first scaling kernel (the first argument's rows divided by their norms), at any float instance, from
  any contents `V` of the core's buffers at the region's entry.

  The grid has four points; at point `t` the body reads rows `1024 t .. 1024 t + 1023` of the argument (the input
  window's block, `iblk0 V c 0 t`) and leaves in the output window's buffer the scaled block: the one store's
  value `k0_pay1` of that block (`out0_1`). The body's triple is run symbolically; the proof data name the
  entry arrays and what each window's buffer holds after the body at each point; the body obligation follows at
  every point because an input window's buffer holds its block whether or not it was fetched there.
-/
import proofs.«140498_j17248588661028_2_alg».proof.Proof.Gen.Kernel.Launch
import proofs.«140498_j17248588661028_2_alg».proof.Proof.Gen.Kernel.Skeleton
import proofs.«140498_j17248588661028_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's buffer holds its block at every point, fetched there or not, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 x 128 buffer as a rectangle: what the body loads and stores through. -/
abbrev r0_0 : Rect S1024x128 := Rect.unit (s := S1024x128) ![0, 0] S1024x128.size inb_S1024x128_S1024x128_0_0

/-- The output window's buffer after the body, from the input block: its one store, of the scaled block. -/
def out0_1 (x0 : Vec F S1024x128 .f32) : Vec F S1024x128 .f32 :=
  View.canon [⟨r0_0, k0_pay1 (View.ld x0 r0_0)⟩]

/-- The one store covers the buffer. -/
theorem cover0_1 (p0 : Vec F S1024x128 .f32) (y : S1024x128.Idx) :
    ∃ pc ∈ ([⟨r0_0, p0⟩] : List (View.Piece (Elt F) S1024x128 .f32)), y ∈ pc.1.set :=
  View.cover_of_tiled [⟨r0_0, p0⟩] S1024x128.size (by rfl) y

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg0 : Memref sig .tc .vmem S1024x128 .f32) (harg0 : arg0.IsWhole) (arg1 : Memref sig .tc .vmem S1024x128 .f32) (harg1 : arg1.IsWhole)
    (x0 : Vec F S1024x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of this pipeline on core `c`: the arrays as the region finds them; after the body at point `t` the
    input's buffer at its block and the output's at the scaled block; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.KBody1.lean ====
/-
  The second scaling kernel (the second argument's rows divided by their norms), at any float instance, from
  any contents `V` of the core's buffers at the region's entry.

  The grid has four points; at point `t` the body reads rows `1024 t .. 1024 t + 1023` of the argument (the input
  window's block, `iblk1 V c 0 t`) and leaves in the output window's buffer the scaled block: the one store's
  value `k1_pay1` of that block (`out1_1`). The body's triple is run symbolically; the proof data name the
  entry arrays and what each window's buffer holds after the body at each point; the body obligation follows at
  every point because an input window's buffer holds its block whether or not it was fetched there.
-/
import proofs.«140498_j17248588661028_2_alg».proof.Proof.Gen.Kernel.Launch
import proofs.«140498_j17248588661028_2_alg».proof.Proof.Gen.Kernel.Skeleton
import proofs.«140498_j17248588661028_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 1024 x 128 buffer as a rectangle: what the body loads and stores through. -/
abbrev r1_0 : Rect S1024x128 := Rect.unit (s := S1024x128) ![0, 0] S1024x128.size inb_S1024x128_S1024x128_0_0

/-- The output window's buffer after the body, from the input block: its one store, of the scaled block. -/
def out1_1 (x0 : Vec F S1024x128 .f32) : Vec F S1024x128 .f32 :=
  View.canon [⟨r1_0, k1_pay1 (View.ld x0 r1_0)⟩]

/-- The one store covers the buffer. -/
theorem cover1_1 (p0 : Vec F S1024x128 .f32) (y : S1024x128.Idx) :
    ∃ pc ∈ ([⟨r1_0, p0⟩] : List (View.Piece (Elt F) S1024x128 .f32)), y ∈ pc.1.set :=
  View.cover_of_tiled [⟨r1_0, p0⟩] S1024x128.size (by rfl) y

set_option maxHeartbeats 1000000 in
/-- The body on whole staging memrefs, the input's at contents `x0` and the output's at anything, runs to the
    continuation holding the input's as it was and the output's at `out1_1 x0`. -/
theorem sound_kernel1 (c : Dev nD) (E : Set ℕ) (i : grid1.Coords) (arg0 : Memref sig .tc .vmem S1024x128 .f32) (harg0 : arg0.IsWhole) (arg1 : Memref sig .tc .vmem S1024x128 .f32) (harg1 : arg1.IsWhole)
    (x0 : Vec F S1024x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__normalize_kernel i arg0 harg0 arg1 harg1) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of this pipeline on core `c`: the arrays as the region finds them; after the body at point `t` the
    input's buffer at its block and the output's at the scaled block; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.KBody2.lean ====
/-
  The loss kernel, at any float instance, from any contents `V` of the core's buffers at the region's entry.

  The grid has 64 points. At point `t` the body reads a tile of 128 rows of the scaled rows `z` (window 0's block),
  and ALL 8192 rows of `z` (window 1, whose block index never moves, so it is fetched once); both windows sit on
  the one array `z`. It leaves in the output window's buffer the 128 row losses of the tile: the one store's value
  `k2_pay1` at the point's coordinates of the two blocks (`out2_2`).
-/
import proofs.«140498_j17248588661028_2_alg».proof.Proof.Gen.Kernel.Launch
import proofs.«140498_j17248588661028_2_alg».proof.Proof.Gen.Kernel.Skeleton
import proofs.«140498_j17248588661028_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The tile window's buffer holds its block at every point, for any proof data whose array is `V`'s and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole-array window's buffer holds its block at every point, fetched there (the first point) or not (its
    index has not moved since). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The three buffers as whole rectangles: what the body loads and stores through. -/
abbrev r2_0 : Rect S128x128 := Rect.unit (s := S128x128) ![0, 0] S128x128.size inb_S128x128_S128x128_0_0
abbrev r2_1 : Rect S8192x128 := Rect.unit (s := S8192x128) ![0, 0] S8192x128.size inb_S8192x128_S8192x128_0_0
abbrev r2_2 : Rect S128 := Rect.unit (s := S128) ![0] S128.size inb_S128_S128_0

/-- The output window's buffer after the body at grid coordinates `i`, from the two input blocks: its one store, of
    the tile's 128 row losses. -/
def out2_2 (i : grid2.Coords) (x0 : Vec F S128x128 .f32) (x1 : Vec F S8192x128 .f32) : Vec F S128 .f32 :=
  View.canon [⟨r2_2, k2_pay1 i (View.ld x0 r2_0) (View.ld x1 r2_1)⟩]

/-- The one store covers the buffer. -/
theorem cover2_2 (p0 : Vec F S128 .f32) (y : S128.Idx) :
    ∃ pc ∈ ([⟨r2_2, p0⟩] : List (View.Piece (Elt F) S128 .f32)), y ∈ pc.1.set :=
  View.cover_of_tiled [⟨r2_2, p0⟩] S128.size (by rfl) y

set_option maxHeartbeats 1000000 in
/-- The body on whole staging memrefs, the inputs' at contents `x0`, `x1` and the output's at anything, runs to the
    continuation holding the inputs' as they were and the output's at `out2_2 i x0 x1`. -/
theorem sound_kernel2 (c : Dev nD) (E : Set ℕ) (i : grid2.Coords)
    (arg0 : Memref sig .tc .vmem S128x128 .f32) (harg0 : arg0.IsWhole) (arg1 : Memref sig .tc .vmem S8192x128 .f32) (harg1 : arg1.IsWhole)
    (arg2 : Memref sig .tc .vmem S128 .f32) (harg2 : arg2.IsWhole)
    (x0 : Vec F S128x128 .f32) (x1 : Vec F S8192x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 i x0 x1)) -∗ K ⟨⟩))
      ⊢ wp frame (wpE (defs₀ (F := F)) Variants.none c none) E (cc2__contrastive_kernel_impl i arg0 harg0 arg1 harg1 arg2 harg2) K := by
  simp only [cc2__contrastive_kernel_impl_eq_skeleton]; unfold cc2__contrastive_kernel_impl_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core `c`: the arrays as the region finds them; after the body at point `t` each
    input's buffer at its block and the output's at the tile's row losses; the invariant the scoped rest and the
    generator register, untouched; nothing owed. The two input windows sit on ONE array, so each holds half of it:
    the left half and the right half of the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (grid2.coords t) (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (grid2.coords t) (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Run

end
-- ==== Proof.KSplit2.lean ====
/-
  The loss kernel's arrays at its entry and exit. Its two input windows sit on the one array of scaled rows, so the
  buffer behind them, held whole, is divided between them: the left half of the full share to the tile window, the
  right half to the whole-array window; the output window's array is held whole. Read in the other direction, the
  two halves at equal contents rejoin into the buffer held whole.
-/
import proofs.«140498_j17248588661028_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind the loss kernel's arrays are the array of scaled rows and the array of row losses. -/
theorem arrImage2 : Finset.univ.image (Pipeline.arrRef spec2) = {main_v2, main_v3} := by decide

/-- The two buffers held whole at contents `V` are the kernel's arrays at contents `G` that agree with `V`: the
    array of scaled rows split into its two half shares, one per input window. -/
theorem arrays_iff_bufs2 {c : Dev nD} (dat : Dat τ (Elt F) Unit ℕ (UR sig nD τ) ℕ cfg2 c)
    (hq0 : dat.q 0 = fullShare.left) (hq1 : dat.q 1 = fullShare.right)
    (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    (Pipeline.arrBufs (Ix := Unit) (Name := ℕ) (U := UR sig nD τ) (Lvl := ℕ) spec2 c V : sProp 𝕄) ⊣⊢ dat.arrays G := by
  unfold Pipeline.arrBufs Dat.arrays
  rw [bigSep_W2, arrImage2]
  rw [bigSep_insert (by decide), bigSep_singleton]
  have hs0 : dat.share 0 = fullShare.left := by unfold Dat.share; rw [← hq0]; rfl
  have hs1 : dat.share 1 = fullShare.right := by unfold Dat.share; rw [← hq1]; rfl
  have hs2 : dat.share 2 = fullShare := rfl
  rw [hG 0, hG 1, hG 2, (arr_whole2 0).set_eq_univ, (arr_whole2 2).set_eq_univ, hs0, hs1, hs2]
  show iprop(((c : Thread nD τ).loc main_v2 ↦{fullShare} V main_v2) ∗ ((c : Thread nD τ).loc main_v3 ↦{fullShare} V main_v3))
    ⊣⊢ iprop(((c : Thread nD τ).loc main_v2 ↦{fullShare.left} V main_v2) ∗ ((c : Thread nD τ).loc main_v2 ↦{fullShare.right} V main_v2)
      ∗ ((c : Thread nD τ).loc main_v3 ↦{fullShare} V main_v3))
  refine ⟨?_, ?_⟩
  · iintro ⟨H2, H3⟩
    ihave H' := (pointsTo_share (PosShare.mem_left_op_right fullShare)).1 $$ H2
    icases H' with ⟨Hl, Hr⟩
    isplitl [Hl]; · iexact Hl
    isplitl [Hr]; · iexact Hr
    iexact H3
  · iintro ⟨Hl, Hr, H3⟩
    isplitl [Hl Hr]
    · iapply (pointsTo_share (PosShare.mem_left_op_right fullShare)).2
      isplitl [Hl]; · iexact Hl
      iexact Hr
    iexact H3

/-- ENTRY of the loss kernel: a core's unscoped buffers at contents `V` are the kernel's arrays at contents `G` read
    off `V` — the array of scaled rows in two half shares — and the unscoped rest. -/
theorem arrays_of_unscopedBufs2 {c : Dev nD} (dat : Dat τ (Elt F) Unit ℕ (UR sig nD τ) ℕ cfg2 c)
    (hq0 : dat.q 0 = fullShare.left) (hq1 : dat.q 1 = fullShare.right)
    (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    (unscopedBufs c V : sProp 𝕄) ⊢ iprop(dat.arrays G ∗ Pipeline.unscopedRest spec2 c V) := by
  rw [Pipeline.unscopedBufs_split₀ cfgs 2 winFacts₀2.arr_unscoped c V]
  exact sep_mono (arrays_iff_bufs2 dat hq0 hq1 V G hG).1 .rfl

/-- EXIT of the loss kernel: its arrays at contents `G` and the unscoped rest at `V` are the core's unscoped buffers
    at any contents `V'` that have the arrays at `G` and agree with `V` off them. -/
theorem unscopedBufs_of_arrays2 {c : Dev nD} (dat : Dat τ (Elt F) Unit ℕ (UR sig nD τ) ℕ cfg2 c)
    (hq0 : dat.q 0 = fullShare.left) (hq1 : dat.q 1 = fullShare.right)
    (V V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w))
    (hrest : ∀ b, b ∉ Finset.univ.image (Pipeline.arrRef spec2) → V' b = V b) :
    iprop(dat.arrays G ∗ Pipeline.unscopedRest spec2 c V) ⊢ (unscopedBufs c V' : sProp 𝕄) := by
  rw [Pipeline.unscopedBufs_split₀ cfgs 2 winFacts₀2.arr_unscoped c V']
  refine sep_mono (arrays_iff_bufs2 dat hq0 hq1 V' G hG).2 (Entails.of_eq ?_)
  unfold Pipeline.unscopedRest
  exact bigSep_congr fun b hb => by rw [hrest b (Finset.mem_sdiff.mp hb).2]

end Cert.Kernel.Run

end
-- ==== Proof.KRun.lean ====
/-
  The whole program's run, at any float instance: two scaling kernels, the join of their results into the 8192
  scaled rows, the loss kernel, and the mean of its row losses.

  Between two items of the program every unscoped buffer of a core is held at a named valuation: the launch
  memory (`W0`); after the first scaling kernel, the same with its result array at what the kernel's write-backs
  leave (`W1`); likewise after the second (`W2`); after the join, `StableHlo.after` of that host operation (`W3`);
  after the loss kernel, the same with the array of row losses at what its write-backs leave (`W4`); after the sum
  and the quotient, `StableHlo.after` of those (`W5`). Each kernel region is a segment entered from one valuation
  and left at the next; the loss kernel's two input windows share the array of scaled rows, split between them at
  entry and rejoined at exit. The run ends with every unscoped buffer equal to `W5`; no item writes an argument.
-/
import proofs.«140498_j17248588661028_2_alg».proof.Proof.Gen.Kernel.Launch
import proofs.«140498_j17248588661028_2_alg».proof.Proof.Gen.Kernel.Skeleton
import proofs.«140498_j17248588661028_2_alg».proof.Proof.Gen.Kernel.Points
import proofs.«140498_j17248588661028_2_alg».proof.Proof.KBody0
import proofs.«140498_j17248588661028_2_alg».proof.Proof.KBody1
import proofs.«140498_j17248588661028_2_alg».proof.Proof.KBody2
import proofs.«140498_j17248588661028_2_alg».proof.Proof.KSplit2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the first scaling kernel: its arrays at what the pipeline leaves, every other buffer as it was. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second scaling kernel. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the join of the two results. -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b

/-- After the loss kernel: the array of row losses at what the pipeline leaves, every other buffer as it was (the
    kernel's other array, the scaled rows, is only read). -/
def W4 (c : Dev nD) : Valuation τ sig (Elt F) :=
  Function.update (W3 m ρ c) (Proc.devRef .tc main_v3) ((dat2 (V3 m ρ) c).arrAt 2 cfg2.N)
theorem W4_out (c : Dev nD) : W4 m ρ c (Proc.devRef .tc main_v3) = (dat2 (V3 m ρ) c).arrAt 2 cfg2.N := by
  unfold W4; exact Function.update_self ..
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b

/-- After the sum of the row losses and its quotient by 8192. -/
abbrev W5 : Dev nD → Valuation τ sig (Elt F) := fun c => StableHlo.after hostOps3 (W4 m ρ c)

/-- At the loss kernel's exit each of its arrays holds what the pipeline leaves: an input's array what it held at
    entry, the output's array its write-backs. -/
theorem hF2 (c : Dev nD) (w : Fin cfg2.W) : (dat2 (V3 m ρ) c).arrAt w cfg2.N = V4 m ρ c (Pipeline.arrRef spec2 w) :=
  match w with
  | ⟨0, _⟩ => (((dat2 (V3 m ρ) c).arrAt_in 0 rfl _).trans (A_eq2 (V3 m ρ) c 0)).trans (W4_of_ne m ρ c main_v2 (by decide)).symm
  | ⟨1, _⟩ => (((dat2 (V3 m ρ) c).arrAt_in 1 rfl _).trans (A_eq2 (V3 m ρ) c 1)).trans (W4_of_ne m ρ c main_v2 (by decide)).symm
  | ⟨2, _⟩ => (W4_out m ρ c).symm
theorem hrest2 (c : Dev nD) : ∀ b, b ∉ Finset.univ.image (Pipeline.arrRef spec2) → V4 m ρ c b = V3 m ρ c b :=
  fun b hb => W4_of_ne m ρ c b fun e => hb (Finset.mem_image.mpr ⟨2, Finset.mem_univ _, e.symm⟩)

/-! ## No item writes an argument -/

theorem hostOps2_keeps (c : Dev nD) (W : Valuation τ sig (Elt F)) (b : Ref sig .tc) (hb : b ≠ main_v2) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, Finset.mem_singleton]
    exact StableHlo.devRef_ne_of_ne hb))

theorem hostOps3_keeps (c : Dev nD) (W : Valuation τ sig (Elt F)) (b : Ref sig .tc)
    (hb : b ≠ main_cst ∧ b ≠ main_v4 ∧ b ≠ main_cst_0 ∧ b ≠ main_v5) :
    StableHlo.after hostOps3 W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

/-- The first argument reaches the end as launched. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := hostOps3_keeps c _ main_arg0 (by decide)
    _ = W3 m ρ c (Proc.devRef .tc main_arg0) := W4_of_ne m ρ c main_arg0 (by decide)
    _ = W2 m ρ c (Proc.devRef .tc main_arg0) := hostOps2_keeps c _ main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The second argument reaches the end as launched. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := hostOps3_keeps c _ main_arg1 (by decide)
    _ = W3 m ρ c (Proc.devRef .tc main_arg1) := W4_of_ne m ρ c main_arg1 (by decide)
    _ = W2 m ρ c (Proc.devRef .tc main_arg1) := hostOps2_keeps c _ main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first scaling kernel over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second scaling kernel over the thread state: entered from every unscoped buffer at `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The loss kernel over the thread state: entered from every unscoped buffer at `W3`, left at `W4`. Its two input
    windows share the array of scaled rows: split into half shares at entry, rejoined at exit. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := arrays_of_unscopedBufs2 (dat2 (V3 m ρ) c) rfl rfl (V3 m ρ c) ((dat2 (V3 m ρ) c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (dat2 (V3 m ρ) c) rfl rfl (V3 m ρ c) (V4 m ρ c) ((dat2 (V3 m ρ) c).arrAt · cfg2.N)
      (hF2 m ρ c) (hrest2 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)) ]
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and in every final state each unscoped buffer of each core holds `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run_all m ρ)

end Cert.Kernel.Run

end
-- ==== Proof.Body0.lean ====
/-
  The first scaling kernel (the first argument's rows divided by their norms), at any float instance, from
  any contents `V` of the core's buffers at the region's entry.

  The grid has four points; at point `t` the body reads rows `1024 t .. 1024 t + 1023` of the argument (the input
  window's block, `iblk0 V c 0 t`) and leaves in the output window's buffer the scaled block: the one store's
  value `k0_pay1` of that block (`out0_1`). The body's triple is run symbolically; the proof data name the
  entry arrays and what each window's buffer holds after the body at each point; the body obligation follows at
  every point because an input window's buffer holds its block whether or not it was fetched there.
-/
import proofs.«140498_j17248588661028_2_alg».proof.Proof.Gen.KernelIdeal.Launch
import proofs.«140498_j17248588661028_2_alg».proof.Proof.Gen.KernelIdeal.Skeleton
import proofs.«140498_j17248588661028_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's buffer holds its block at every point, fetched there or not, for any proof data whose
    array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 1024 x 128 buffer as a rectangle: what the body loads and stores through. -/
abbrev r0_0 : Rect S1024x128 := Rect.unit (s := S1024x128) ![0, 0] S1024x128.size inb_S1024x128_S1024x128_0_0

/-- The output window's buffer after the body, from the input block: its one store, of the scaled block. -/
def out0_1 (x0 : Vec F S1024x128 .f32) : Vec F S1024x128 .f32 :=
  View.canon [⟨r0_0, k0_pay1 (View.ld x0 r0_0)⟩]

/-- The one store covers the buffer. -/
theorem cover0_1 (p0 : Vec F S1024x128 .f32) (y : S1024x128.Idx) :
    ∃ pc ∈ ([⟨r0_0, p0⟩] : List (View.Piece (Elt F) S1024x128 .f32)), y ∈ pc.1.set :=
  View.cover_of_tiled [⟨r0_0, p0⟩] S1024x128.size (by rfl) y

set_option maxHeartbeats 1000000 in
/-- The body on whole staging memrefs, the input's at contents `x0` and the output's at anything, runs to the
    continuation holding the input's as it was and the output's at `out0_1 x0`. -/
theorem sound_kernel0 (c : Dev nD) (E : Set ℕ) (i : grid0.Coords) (arg0 : Memref sig .tc .vmem S1024x128 .f32) (harg0 : arg0.IsWhole) (arg1 : Memref sig .tc .vmem S1024x128 .f32) (harg1 : arg1.IsWhole)
    (x0 : Vec F S1024x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out0_1 x0)) -∗ K ⟨⟩))
      ⊢ wp frame (wpE (defs₀ (F := F)) Variants.none c none) E (cc0__normalize_kernel i arg0 harg0 arg1 harg1) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of this pipeline on core `c`: the arrays as the region finds them; after the body at point `t` the
    input's buffer at its block and the output's at the scaled block; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.Body1.lean ====
/-
  The second scaling kernel (the second argument's rows divided by their norms), at any float instance, from
  any contents `V` of the core's buffers at the region's entry.

  The grid has four points; at point `t` the body reads rows `1024 t .. 1024 t + 1023` of the argument (the input
  window's block, `iblk1 V c 0 t`) and leaves in the output window's buffer the scaled block: the one store's
  value `k1_pay1` of that block (`out1_1`). The body's triple is run symbolically; the proof data name the
  entry arrays and what each window's buffer holds after the body at each point; the body obligation follows at
  every point because an input window's buffer holds its block whether or not it was fetched there.
-/
import proofs.«140498_j17248588661028_2_alg».proof.Proof.Gen.KernelIdeal.Launch
import proofs.«140498_j17248588661028_2_alg».proof.Proof.Gen.KernelIdeal.Skeleton
import proofs.«140498_j17248588661028_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's buffer holds its block at every point, fetched there or not, for any proof data whose
    array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The whole 1024 x 128 buffer as a rectangle: what the body loads and stores through. -/
abbrev r1_0 : Rect S1024x128 := Rect.unit (s := S1024x128) ![0, 0] S1024x128.size inb_S1024x128_S1024x128_0_0

/-- The output window's buffer after the body, from the input block: its one store, of the scaled block. -/
def out1_1 (x0 : Vec F S1024x128 .f32) : Vec F S1024x128 .f32 :=
  View.canon [⟨r1_0, k1_pay1 (View.ld x0 r1_0)⟩]

/-- The one store covers the buffer. -/
theorem cover1_1 (p0 : Vec F S1024x128 .f32) (y : S1024x128.Idx) :
    ∃ pc ∈ ([⟨r1_0, p0⟩] : List (View.Piece (Elt F) S1024x128 .f32)), y ∈ pc.1.set :=
  View.cover_of_tiled [⟨r1_0, p0⟩] S1024x128.size (by rfl) y

set_option maxHeartbeats 1000000 in
/-- The body on whole staging memrefs, the input's at contents `x0` and the output's at anything, runs to the
    continuation holding the input's as it was and the output's at `out1_1 x0`. -/
theorem sound_kernel1 (c : Dev nD) (E : Set ℕ) (i : grid1.Coords) (arg0 : Memref sig .tc .vmem S1024x128 .f32) (harg0 : arg0.IsWhole) (arg1 : Memref sig .tc .vmem S1024x128 .f32) (harg1 : arg1.IsWhole)
    (x0 : Vec F S1024x128 .f32) (K : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out1_1 x0)) -∗ K ⟨⟩))
      ⊢ wp frame (wpE (defs₀ (F := F)) Variants.none c none) E (cc1__normalize_kernel i arg0 harg0 arg1 harg1) K := by
  simp only [cc1__normalize_kernel_eq_skeleton]; unfold cc1__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover1_1 _)

/-- The proof data of this pipeline on core `c`: the arrays as the region finds them; after the body at point `t` the
    input's buffer at its block and the output's at the scaled block; the invariant the scoped rest and the generator
    register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]

theorem before1_0 (c : Dev nD) (t : Fin cfg1.N) (d) : (dat1 V c).before 0 t d = iblk1 V c 0 t :=
  before1_0_of V (dat1 V c) (A_eq1 V c 0) (after1_0 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's memref holds its block, so the triple applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (sound_kernel1 c Set.univ _ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.Body2.lean ====
/-
  The loss kernel, at any float instance, from any contents `V` of the core's buffers at the region's entry.

  The grid has 64 points. At point `t` the body reads a tile of 128 rows of the scaled rows `z` (window 0's block),
  and ALL 8192 rows of `z` (window 1, whose block index never moves, so it is fetched once); both windows sit on
  the one array `z`. It leaves in the output window's buffer the 128 row losses of the tile: the one store's value
  `k2_pay1` at the point's coordinates of the two blocks (`out2_2`).
-/
import proofs.«140498_j17248588661028_2_alg».proof.Proof.Gen.KernelIdeal.Launch
import proofs.«140498_j17248588661028_2_alg».proof.Proof.Gen.KernelIdeal.Skeleton
import proofs.«140498_j17248588661028_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The tile window's buffer holds its block at every point, for any proof data whose array is `V`'s and whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The whole-array window's buffer holds its block at every point, fetched there (the first point) or not (its
    index has not moved since). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The three buffers as whole rectangles: what the body loads and stores through. -/
abbrev r2_0 : Rect S128x128 := Rect.unit (s := S128x128) ![0, 0] S128x128.size inb_S128x128_S128x128_0_0
abbrev r2_1 : Rect S8192x128 := Rect.unit (s := S8192x128) ![0, 0] S8192x128.size inb_S8192x128_S8192x128_0_0
abbrev r2_2 : Rect S128 := Rect.unit (s := S128) ![0] S128.size inb_S128_S128_0

/-- The output window's buffer after the body at grid coordinates `i`, from the two input blocks: its one store, of
    the tile's 128 row losses. -/
def out2_2 (i : grid2.Coords) (x0 : Vec F S128x128 .f32) (x1 : Vec F S8192x128 .f32) : Vec F S128 .f32 :=
  View.canon [⟨r2_2, k2_pay1 i (View.ld x0 r2_0) (View.ld x1 r2_1)⟩]

/-- The one store covers the buffer. -/
theorem cover2_2 (p0 : Vec F S128 .f32) (y : S128.Idx) :
    ∃ pc ∈ ([⟨r2_2, p0⟩] : List (View.Piece (Elt F) S128 .f32)), y ∈ pc.1.set :=
  View.cover_of_tiled [⟨r2_2, p0⟩] S128.size (by rfl) y

set_option maxHeartbeats 1000000 in
/-- The body on whole staging memrefs, the inputs' at contents `x0`, `x1` and the output's at anything, runs to the
    continuation holding the inputs' as they were and the output's at `out2_2 i x0 x1`. -/
theorem sound_kernel2 (c : Dev nD) (E : Set ℕ) (i : grid2.Coords)
    (arg0 : Memref sig .tc .vmem S128x128 .f32) (harg0 : arg0.IsWhole) (arg1 : Memref sig .tc .vmem S8192x128 .f32) (harg1 : arg1.IsWhole)
    (arg2 : Memref sig .tc .vmem S128 .f32) (harg2 : arg2.IsWhole)
    (x0 : Vec F S128x128 .f32) (x1 : Vec F S8192x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out2_2 i x0 x1)) -∗ K ⟨⟩))
      ⊢ wp frame (wpE (defs₀ (F := F)) Variants.none c none) E (cc2__contrastive_kernel_impl i arg0 harg0 arg1 harg1 arg2 harg2) K := by
  simp only [cc2__contrastive_kernel_impl_eq_skeleton]; unfold cc2__contrastive_kernel_impl_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core `c`: the arrays as the region finds them; after the body at point `t` each
    input's buffer at its block and the output's at the tile's row losses; the invariant the scoped rest and the
    generator register, untouched; nothing owed. The two input windows sit on ONE array, so each holds half of it:
    the left half and the right half of the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (grid2.coords t) (iblk2 V c 0 t) (iblk2 V c 1 t)
  Φ _ := Pipeline.ΦA spec2 c
  q w := match w with
    | ⟨0, _⟩ => fullShare.left
    | ⟨1, _⟩ => fullShare.right
    | ⟨2, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (grid2.coords t) (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' memrefs hold their blocks, so the triple applies; the invariant and what the
    core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Run

end
-- ==== Proof.Split2.lean ====
/-
  The loss kernel's arrays at its entry and exit. Its two input windows sit on the one array of scaled rows, so the
  buffer behind them, held whole, is divided between them: the left half of the full share to the tile window, the
  right half to the whole-array window; the output window's array is held whole. Read in the other direction, the
  two halves at equal contents rejoin into the buffer held whole.
-/
import proofs.«140498_j17248588661028_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The buffers behind the loss kernel's arrays are the array of scaled rows and the array of row losses. -/
theorem arrImage2 : Finset.univ.image (Pipeline.arrRef spec2) = {main_v2, main_v3} := by decide

/-- The two buffers held whole at contents `V` are the kernel's arrays at contents `G` that agree with `V`: the
    array of scaled rows split into its two half shares, one per input window. -/
theorem arrays_iff_bufs2 {c : Dev nD} (dat : Dat τ (Elt F) Unit ℕ (UR sig nD τ) ℕ cfg2 c)
    (hq0 : dat.q 0 = fullShare.left) (hq1 : dat.q 1 = fullShare.right)
    (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    (Pipeline.arrBufs (Ix := Unit) (Name := ℕ) (U := UR sig nD τ) (Lvl := ℕ) spec2 c V : sProp 𝕄) ⊣⊢ dat.arrays G := by
  unfold Pipeline.arrBufs Dat.arrays
  rw [bigSep_W2, arrImage2]
  rw [bigSep_insert (by decide), bigSep_singleton]
  have hs0 : dat.share 0 = fullShare.left := by unfold Dat.share; rw [← hq0]; rfl
  have hs1 : dat.share 1 = fullShare.right := by unfold Dat.share; rw [← hq1]; rfl
  have hs2 : dat.share 2 = fullShare := rfl
  rw [hG 0, hG 1, hG 2, (arr_whole2 0).set_eq_univ, (arr_whole2 2).set_eq_univ, hs0, hs1, hs2]
  show iprop(((c : Thread nD τ).loc main_v2 ↦{fullShare} V main_v2) ∗ ((c : Thread nD τ).loc main_v3 ↦{fullShare} V main_v3))
    ⊣⊢ iprop(((c : Thread nD τ).loc main_v2 ↦{fullShare.left} V main_v2) ∗ ((c : Thread nD τ).loc main_v2 ↦{fullShare.right} V main_v2)
      ∗ ((c : Thread nD τ).loc main_v3 ↦{fullShare} V main_v3))
  refine ⟨?_, ?_⟩
  · iintro ⟨H2, H3⟩
    ihave H' := (pointsTo_share (PosShare.mem_left_op_right fullShare)).1 $$ H2
    icases H' with ⟨Hl, Hr⟩
    isplitl [Hl]; · iexact Hl
    isplitl [Hr]; · iexact Hr
    iexact H3
  · iintro ⟨Hl, Hr, H3⟩
    isplitl [Hl Hr]
    · iapply (pointsTo_share (PosShare.mem_left_op_right fullShare)).2
      isplitl [Hl]; · iexact Hl
      iexact Hr
    iexact H3

/-- ENTRY of the loss kernel: a core's unscoped buffers at contents `V` are the kernel's arrays at contents `G` read
    off `V` — the array of scaled rows in two half shares — and the unscoped rest. -/
theorem arrays_of_unscopedBufs2 {c : Dev nD} (dat : Dat τ (Elt F) Unit ℕ (UR sig nD τ) ℕ cfg2 c)
    (hq0 : dat.q 0 = fullShare.left) (hq1 : dat.q 1 = fullShare.right)
    (V : (b : Ref sig .tc) → Buf (Elt F) ((c : Thread nD τ).loc b))
    (G : (w : Fin cfg2.W) → Buf (Elt F) ((cfg2.win w).arr.view.loc (c : Thread nD τ)))
    (hG : ∀ w, G w = V (Pipeline.arrRef spec2 w)) :
    (unscopedBufs c V : sProp 𝕄) ⊢ iprop(dat.arrays G ∗ Pipeline.unscopedRest spec2 c V) := by
  rw [Pipeline.unscopedBufs_split₀ cfgs 2 winFacts₀2.arr_unscoped c V]
  exact sep_mono (arrays_iff_bufs2 dat hq0 hq1 V G hG).1 .rfl

/-- EXIT of the loss kernel: its arrays at contents `G` and the unscoped rest at `V` are the core's unscoped buffers
    at any contents `V'` that have the arrays at `G` and agree with `V` off them. -/
theorem unscopedBufs_of_arrays2 {c : Dev nD} (dat : Dat τ (Elt F) Unit ℕ (UR sig nD τ) ℕ cfg2 c)
    (hq0 : dat.q 0 = fullShare.left) (hq1 : dat.q 1 = fullShare.right)
    (V V' : (b : Ref sig .tc) → Buf (Elt F) ((c : Thread nD τ).loc b))
    (G : (w : Fin cfg2.W) → Buf (Elt F) ((cfg2.win w).arr.view.loc (c : Thread nD τ)))
    (hG : ∀ w, G w = V' (Pipeline.arrRef spec2 w))
    (hrest : ∀ b, b ∉ Finset.univ.image (Pipeline.arrRef spec2) → V' b = V b) :
    iprop(dat.arrays G ∗ Pipeline.unscopedRest spec2 c V) ⊢ (unscopedBufs c V' : sProp 𝕄) := by
  rw [Pipeline.unscopedBufs_split₀ cfgs 2 winFacts₀2.arr_unscoped c V']
  refine sep_mono (arrays_iff_bufs2 dat hq0 hq1 V' G hG).2 (Entails.of_eq ?_)
  unfold Pipeline.unscopedRest
  exact bigSep_congr fun b hb => by rw [hrest b (Finset.mem_sdiff.mp hb).2]

end Cert.KernelIdeal.Run

end
-- ==== Proof.Run.lean ====
/-
  The whole program's run, at any float instance: two scaling kernels, the join of their results into the 8192
  scaled rows, the loss kernel, and the mean of its row losses.

  Between two items of the program every unscoped buffer of a core is held at a named valuation: the launch
  memory (`W0`); after the first scaling kernel, the same with its result array at what the kernel's write-backs
  leave (`W1`); likewise after the second (`W2`); after the join, `StableHlo.after` of that host operation (`W3`);
  after the loss kernel, the same with the array of row losses at what its write-backs leave (`W4`); after the sum
  and the quotient, `StableHlo.after` of those (`W5`). Each kernel region is a segment entered from one valuation
  and left at the next; the loss kernel's two input windows share the array of scaled rows, split between them at
  entry and rejoined at exit. The run ends with every unscoped buffer equal to `W5`; no item writes an argument.
-/
import proofs.«140498_j17248588661028_2_alg».proof.Proof.Gen.KernelIdeal.Launch
import proofs.«140498_j17248588661028_2_alg».proof.Proof.Gen.KernelIdeal.Skeleton
import proofs.«140498_j17248588661028_2_alg».proof.Proof.Gen.KernelIdeal.Points
import proofs.«140498_j17248588661028_2_alg».proof.Proof.Body0
import proofs.«140498_j17248588661028_2_alg».proof.Proof.Body1
import proofs.«140498_j17248588661028_2_alg».proof.Proof.Body2
import proofs.«140498_j17248588661028_2_alg».proof.Proof.Split2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- After the first scaling kernel: its arrays at what the pipeline leaves, every other buffer as it was. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the second scaling kernel. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- After the join of the two results. -/
abbrev W3 : Dev nD → Valuation τ sig (Elt F) := fun c => StableHlo.after hostOps2 (W2 m ρ c)
abbrev V3 : (c : Dev nD) → (b : Ref sig .tc) → Buf (Elt F) ((c : Thread nD τ).loc b) := fun c b => W3 m ρ c b

/-- After the loss kernel: the array of row losses at what the pipeline leaves, every other buffer as it was (the
    kernel's other array, the scaled rows, is only read). -/
def W4 (c : Dev nD) : Valuation τ sig (Elt F) :=
  Function.update (W3 m ρ c) (Proc.devRef .tc main_v3) ((dat2 (V3 m ρ) c).arrAt 2 cfg2.N)
theorem W4_out (c : Dev nD) : W4 m ρ c (Proc.devRef .tc main_v3) = (dat2 (V3 m ρ) c).arrAt 2 cfg2.N := by
  unfold W4; exact Function.update_self ..
theorem W4_of_ne (c : Dev nD) (b : Ref sig .tc) (hb : b ≠ main_v3) :
    W4 m ρ c (Proc.devRef .tc b) = W3 m ρ c (Proc.devRef .tc b) := by
  unfold W4; exact Function.update_of_ne (StableHlo.devRef_ne_of_ne hb) ..
abbrev V4 : (c : Dev nD) → (b : Ref sig .tc) → Buf (Elt F) ((c : Thread nD τ).loc b) := fun c b => W4 m ρ c b

/-- After the sum of the row losses and its quotient by 8192. -/
abbrev W5 : Dev nD → Valuation τ sig (Elt F) := fun c => StableHlo.after hostOps3 (W4 m ρ c)

/-- At the loss kernel's exit each of its arrays holds what the pipeline leaves: an input's array what it held at
    entry, the output's array its write-backs. -/
theorem hF2 (c : Dev nD) (w : Fin cfg2.W) : (dat2 (V3 m ρ) c).arrAt w cfg2.N = V4 m ρ c (Pipeline.arrRef spec2 w) :=
  match w with
  | ⟨0, _⟩ => (((dat2 (V3 m ρ) c).arrAt_in 0 rfl _).trans (A_eq2 (V3 m ρ) c 0)).trans (W4_of_ne m ρ c main_v2 (by decide)).symm
  | ⟨1, _⟩ => (((dat2 (V3 m ρ) c).arrAt_in 1 rfl _).trans (A_eq2 (V3 m ρ) c 1)).trans (W4_of_ne m ρ c main_v2 (by decide)).symm
  | ⟨2, _⟩ => (W4_out m ρ c).symm
theorem hrest2 (c : Dev nD) : ∀ b, b ∉ Finset.univ.image (Pipeline.arrRef spec2) → V4 m ρ c b = V3 m ρ c b :=
  fun b hb => W4_of_ne m ρ c b fun e => hb (Finset.mem_image.mpr ⟨2, Finset.mem_univ _, e.symm⟩)

/-! ## No item writes an argument -/

theorem hostOps2_keeps (c : Dev nD) (W : Valuation τ sig (Elt F)) (b : Ref sig .tc) (hb : b ≠ main_v2) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, Finset.mem_singleton]
    exact StableHlo.devRef_ne_of_ne hb))

theorem hostOps3_keeps (c : Dev nD) (W : Valuation τ sig (Elt F)) (b : Ref sig .tc)
    (hb : b ≠ main_cst ∧ b ≠ main_v4 ∧ b ≠ main_cst_0 ∧ b ≠ main_v5) :
    StableHlo.after hostOps3 W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, Finset.mem_singleton]
    exact ⟨StableHlo.devRef_ne_of_ne hb.1, StableHlo.devRef_ne_of_ne hb.2.1, StableHlo.devRef_ne_of_ne hb.2.2.1, StableHlo.devRef_ne_of_ne hb.2.2.2⟩))

/-- The first argument reaches the end as launched. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := hostOps3_keeps c _ main_arg0 (by decide)
    _ = W3 m ρ c (Proc.devRef .tc main_arg0) := W4_of_ne m ρ c main_arg0 (by decide)
    _ = W2 m ρ c (Proc.devRef .tc main_arg0) := hostOps2_keeps c _ main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-- The second argument reaches the end as launched. -/
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := hostOps3_keeps c _ main_arg1 (by decide)
    _ = W3 m ρ c (Proc.devRef .tc main_arg1) := W4_of_ne m ρ c main_arg1 (by decide)
    _ = W2 m ρ c (Proc.devRef .tc main_arg1) := hostOps2_keeps c _ main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_fresh : (hostOps2 : List (HloOp τ sig (Elt F))).Forall fun op => op.fresh = ∅ := by
  simp only [List.Forall]; repeat' constructor
theorem hostOps3_fresh : (hostOps3 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The first scaling kernel over the thread state: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second scaling kernel over the thread state: entered from every unscoped buffer at `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The loss kernel over the thread state: entered from every unscoped buffer at `W3`, left at `W4`. Its two input
    windows share the array of scaled rows: split into half shares at entry, rejoined at exit. -/
def reg2 : Pipeline.RegionSeg (pcfgs (F := F)) adm (pdats m ρ) () defs₀ 𝒱₀ L lv 2 where
  win := winFacts₀2
  block_pos := block_pos2
  stage_whole := stage_whole2
  K := PEmpty
  osem k := k.elim
  ho := Pipeline.OwnSemFacts.none _
  hbody c := (body_obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := arrays_of_unscopedBufs2 (dat2 (V3 m ρ) c) rfl rfl (V3 m ρ c) ((dat2 (V3 m ρ) c).arrAt · 0) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := unscopedBufs_of_arrays2 (dat2 (V3 m ρ) c) rfl rfl (V3 m ρ c) (V4 m ρ c) ((dat2 (V3 m ρ) c).arrAt · cfg2.N)
      (hF2 m ρ c) (hrest2 m ρ c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .region (reg1 m ρ),
    .host (hseg hostOps2 hostOps2_sub hostOps2_fresh (W2 m ρ)),
    .region (reg2 m ρ),
    .host (hseg hostOps3 hostOps3_sub hostOps3_fresh (W4 m ρ)) ]
theorem main_run (c : Dev nD) : main (F := F) c = Pipeline.Seg.run (segs m ρ) := (main_chain c).trans (by chain_rfl)

set_option backward.isDefEq.respectTransparency.types false in
/-- THE RUN: from any memory with zero counters, every weakly fair execution of the program on the TensorCores
    terminates, nothing faulting, and in every final state each unscoped buffer of each core holds `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W5_main_arg0 m ρ c),
     (h c _ (mem_uc main_arg1 (by decide))).trans (W5_main_arg1 m ρ c)⟩) (run_all m ρ)

end Cert.KernelIdeal.Run

end
-- ==== Proof.Spec.lean ====
/-
  The contrastive loss both programs compute, as functions on the extended reals, row by row.

  A row `r` of 128 entries is scaled to unit length: each entry divided by `max (sqrt (∑ k, r k * r k)) ε`, with
  `ε` the exact value of the f32 word `0x2B8CBCCC` (the nearest float to 1e-12). With `z` the 8192 scaled rows
  (those of the first argument, then those of the second), the similarity of rows `a` and `b` is their inner
  product `∑ k, z a k * z b k`; row `a`'s partner is row `a + 4096` (for `a < 4096`) or `a - 4096`. Row `a`'s
  loss is

      log (∑ b ≠ a, exp (sim a b * c)) - sim a (partner a) * c,

  where `c = 134217728 / 13421773` is the exact reciprocal of the f32 word `0x3DCCCCCD` (the nearest float to
  0.1, which is `13421773 / 2^27`). The result is the mean of the 8192 row losses: their sum, from the zero word,
  divided by the exact value of the f32 word `0x46000000` (8192).
-/
import Idealize.ShloMosaic.PureOps.Ideal
import Idealize.ShloMosaic.Lib.ValueIdx

noncomputable section

namespace Cert.Spec

open Idealize.ShloMosaic

/-- The floor under a row's norm: the f32 word nearest 1e-12, read exactly. -/
def epsE : EReal := Ideal.ofBits .f32 0x2B8CBCCC#32

/-- The reciprocal of the temperature: one over the f32 word nearest 0.1, which is `13421773 / 2^27`. -/
def invT : EReal := ((134217728 / 13421773 : ℝ) : EReal)

/-- Entry `q` of the row `r` divided by its Euclidean norm, the norm kept at or above `epsE`. -/
def unitRow (r : Fin 128 → EReal) (q : Fin 128) : EReal :=
  Ideal.div (r q) (max (Ideal.sqrt (∑ k : Fin 128, r k * r k)) epsE)

/-- The row paired with row `a`: 4096 rows further on, cyclically over the 8192 rows. -/
def partner (a : Fin 8192) : Fin 8192 :=
  if h : a.val < 4096 then ⟨a.val + 4096, by omega⟩ else ⟨a.val - 4096, by omega⟩

/-- Row `a`'s loss from that row `zrow` and all the rows `z`: the log of the sum over the OTHER rows `b` of
    `exp (⟨zrow, z b⟩ * invT)`, less `⟨zrow, z (partner a)⟩ * invT`. -/
def rowLossAt (zrow : Fin 128 → EReal) (z : Fin 8192 → Fin 128 → EReal) (a : Fin 8192) : EReal :=
  Ideal.log (∑ b : Fin 8192, if b = a then (0 : EReal) else Ideal.exp ((∑ k : Fin 128, zrow k * z b k) * invT))
    - (∑ k : Fin 128, zrow k * z (partner a) k) * invT

/-- Row `a`'s loss among the rows `z`. -/
def rowLoss (z : Fin 8192 → Fin 128 → EReal) (a : Fin 8192) : EReal := rowLossAt (z a) z a

/-- The mean of 8192 values as both programs take it: their sum from the zero word, over the word of 8192. -/
def mean (v : Fin 8192 → EReal) : EReal :=
  Ideal.div (Ideal.ofBits .f32 0x00000000#32 + ∑ a : Fin 8192, v a) (Ideal.ofBits .f32 0x46000000#32)

end Cert.Spec

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.PayUnit.lean ====
/-
  The scaling kernels' stored value, read at an index.

  Each of the two scaling kernels stores, for a block `x` of 1024 rows of 128 entries, the block with every row divided
  by its Euclidean norm kept at or above the floor `ε`: at `(p, q)` the stored value is
  `x (p, q) / max (sqrt (∑ k, x (p, k) * x (p, k))) ε`, which is entry `q` of the specification's `unitRow` of row `p`.
  The row sum is a lane sum from the zero word, kept as a column `[1024, 1]` and broadcast back along the rows; every
  other operation is pointwise.

  The program's last two host operations take the mean of the 8192 row losses `v`: the sum of every entry of `v`
  from the zero word, a rank-0 result, divided by the word of 8192. A sum over the one-axis index set is the sum over
  `Fin 8192` through `ix1`, so the result is the specification's `mean`.
-/
import proofs.«140498_j17248588661028_2_alg».proof.Proof.Gen.KernelIdeal.Skeleton
import proofs.«140498_j17248588661028_2_alg».proof.Proof.Spec
import proofs.«140498_j17248588661028_2_alg».proof.Proof.LibKeepdimsColumn

noncomputable section

namespace Cert.KernelIdeal.PayValue

open Idealize.ShloMosaic Idealize.ShloMosaic.ValueIdx
open Cert.KernelIdeal Cert.KernelIdeal.Gen

/-- The square root of a vector reads pointwise. -/
theorem sqrt_apply {s : Shape} {φ : FTy} (a : FVec Ideal s φ) (i : s.Idx) : sqrt a i = Ideal.sqrt (a i) := rfl

/-- The first scaling kernel's stored block at `(p, q)` is entry `q` of row `p` scaled to unit length. -/
theorem pay_unit0 (x : Vec Ideal S1024x128 .f32) (p : Fin 1024) (q : Fin 128) :
    k0_pay1 (F := Ideal) x (ix2 p q) = Cert.Spec.unitRow (fun k => x (ix2 p k)) q := by
  unfold k0_pay1 Cert.Spec.unitRow Cert.Spec.epsE
  rw [divf_apply, Cert.Gcn.Lib.broadcastTo_a1_ab_apply, maximumf_apply, sqrt_apply,
    Cert.Gcn.Lib.shapeCast_a_a1_apply, Cert.Gcn.Lib.rowsum_apply, broadcast_apply]
  rfl

/-- The second scaling kernel's stored block at `(p, q)` is entry `q` of row `p` scaled to unit length. -/
theorem pay_unit1 (x : Vec Ideal S1024x128 .f32) (p : Fin 1024) (q : Fin 128) :
    k1_pay1 (F := Ideal) x (ix2 p q) = Cert.Spec.unitRow (fun k => x (ix2 p k)) q := by
  unfold k1_pay1 Cert.Spec.unitRow Cert.Spec.epsE
  rw [divf_apply, Cert.Gcn.Lib.broadcastTo_a1_ab_apply, maximumf_apply, sqrt_apply,
    Cert.Gcn.Lib.shapeCast_a_a1_apply, Cert.Gcn.Lib.rowsum_apply, broadcast_apply]
  rfl

/-- A sum over the index set of a one-axis shape is the sum over that axis's coordinates. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun j => j 0, fun _ => rfl, fun j => (eq_ix1 j).symm⟩ :
    Fin n ≃ (⟨1, ![n]⟩ : Shape).Idx) f).symm

/-- The program's tail — the host sum of the 8192 values from the zero word into a rank-0 result, then the quotient by
    the word of 8192 — is the specification's mean of those values. -/
theorem tail_mean (v : (⟨S8192, .f32⟩ : BufTy).Contents (Elt Ideal)) :
    Host.divf (F := Ideal) (Host.reduceAdd (F := Ideal) v (constant (F := Ideal) S_ .f32 0x00000000#32) reducesTo_S8192_S_d0 h_S_) (constant (F := Ideal) S_ .f32 0x46000000#32)
      = fun _ => Cert.Spec.mean (fun a => v (ix1 a)) := by
  funext i
  show Ideal.div (Ideal.hostReduceAdd reducesTo_S8192_S_d0 v (Ideal.ofBits .f32 0x00000000#32) i) (Ideal.ofBits .f32 0x46000000#32) = _
  rw [Ideal.hostReduceAdd_total reducesTo_S8192_S_d0 (fun b => b.elim0), sum_idx1]
  rfl

end Cert.KernelIdeal.PayValue

end
-- ==== Proof.Result.lean ====
/-
  The arrays the program passes through, as whole functions on the extended reals.

  `unitRows A` is the array of `A`'s rows each divided by its norm; `rowsOf x0 x1` the 8192 scaled rows, those of `x0`
  followed by those of `x1` (the join along the first axis); `rowLosses Z` the 8192 row losses among the rows of `Z`;
  `result x0 x1` the mean of the row losses among the scaled rows of the two arguments: what both programs return.
-/
import proofs.«140498_j17248588661028_2_alg».proof.Proof.Gen.KernelIdeal
import proofs.«140498_j17248588661028_2_alg».proof.Proof.Spec
import Idealize.ShloMosaic.Lib.ValueIdx

noncomputable section

namespace Cert.KernelIdeal.Run

open Cert.KernelIdeal Cert.KernelIdeal.Gen
open Idealize.ShloMosaic Idealize.ShloMosaic.ValueIdx

/-- The array of scaled rows of `A`. -/
def unitRows (A : S4096x128.Idx → EReal) : S4096x128.Idx → EReal :=
  fun j => Cert.Spec.unitRow (fun k => A (ix2 (⟨(j 0).val, (j 0).isLt⟩ : Fin 4096) k)) (⟨(j 1).val, (j 1).isLt⟩ : Fin 128)

/-- The array of scaled rows at row `r`, entry `q`. -/
theorem unitRows_apply (A : S4096x128.Idx → EReal) (r : Fin 4096) (q : Fin 128) :
    unitRows A (ix2 r q) = Cert.Spec.unitRow (fun k => A (ix2 r k)) q := rfl

/-- Two arrays of 4096 x 128 entries are joined along the first axis into 8192 x 128. -/
def rowsOf (x0 x1 : S4096x128.Idx → EReal) : S8192x128.Idx → EReal :=
  concatenate S8192x128 0 [⟨S4096x128, unitRows x0⟩, ⟨S4096x128, unitRows x1⟩] concatenates_S4096x128_S4096x128_S8192x128_d0

/-- The 8192 row losses among the rows of `Z`. -/
def rowLosses (Z : S8192x128.Idx → EReal) : S8192.Idx → EReal :=
  fun j => Cert.Spec.rowLoss (fun b k => Z (ix2 b k)) (⟨(j 0).val, (j 0).isLt⟩ : Fin 8192)

/-- The row losses at entry `a`. -/
theorem rowLosses_apply (Z : S8192x128.Idx → EReal) (a : Fin 8192) :
    rowLosses Z (ix1 a) = Cert.Spec.rowLoss (fun b k => Z (ix2 b k)) a := rfl

/-- What both programs return: the mean of the row losses among the scaled rows of the two arguments. -/
def result (x0 x1 : S4096x128.Idx → EReal) : S_.Idx → EReal :=
  fun _ => Cert.Spec.mean (fun a => rowLosses (rowsOf x0 x1) (ix1 a))

end Cert.KernelIdeal.Run

end
-- ==== Proof.Final0.lean ====
/-
  What the first scaling kernel leaves in its result array, on the extended reals: every row of the argument
  divided by its norm.

  Point `t` of the four writes back rows `1024 t .. 1024 t + 1023`: its output block at `(p, q)` is the body's value at
  `(p, q)` of the input block, which is row `p` of the block scaled, entry `q`; row `p` of the input block at point
  `t` is row `1024 t + p` of the argument, and the output block sits at the same rows. The four blocks cover the
  array's 4096 rows (row `r` is in block `r / 1024`), so the array ends holding the scaled rows everywhere.
-/
import proofs.«140498_j17248588661028_2_alg».proof.Proof.Gen.KernelIdeal.Launch
import proofs.«140498_j17248588661028_2_alg».proof.Proof.Gen.KernelIdeal.Skeleton
import proofs.«140498_j17248588661028_2_alg».proof.Proof.Gen.KernelIdeal.Points
import proofs.«140498_j17248588661028_2_alg».proof.Proof.Body0
import proofs.«140498_j17248588661028_2_alg».proof.Proof.PayUnit
import proofs.«140498_j17248588661028_2_alg».proof.Proof.Result
import Idealize.ShloMosaic.Lib.Pipeline.FrameBody
import Idealize.ShloMosaic.Lib.Pipeline.Value
import Idealize.ShloMosaic.Lib.ValueIdx
import Idealize.ShloMosaic.PureOps.Ideal

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

/-- Scaling a row depends only on the row's entries and the entry asked for. -/
theorem unitRow_congr {r r' : Fin 128 → EReal} {q q' : Fin 128} (hr : ∀ k, r k = r' k) (hq : q = q') :
    Cert.Spec.unitRow r q = Cert.Spec.unitRow r' q' := by
  subst hq; rw [show r = r' from funext hr]

/-- The printed index maps over the grid: at point `t` both windows sit at block row `t`, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the array of scaled rows of the argument as the region finds it. -/
theorem flushed0_eq (c : Dev nD) (t : Fin cfg0.N) :
    (dat0 (F := Ideal) V c).flushed 1 t = ((cfg0.win 1).blk t).view.read (Elt Ideal) (unitRows (V c main_arg0)) := by
  show (cfg0.win 1).cut (grid0.coords t) ((dat0 (F := Ideal) V c).after 1 t) = _
  rw [after0_1]
  unfold out0_1
  rw [View.canon_unit_zero hz0]
  simp only [View.ld_unit_zero (S := S1024x128) hz0]
  obtain ⟨e0, e1, e2, e3⟩ := idx_facts0 t
  funext y
  obtain ⟨p, q, rfl⟩ : ∃ (p : Fin 1024) (q : Fin 128), y = ix2 p q := ⟨y 0, y 1, eq_ix2 y⟩
  show k0_pay1 (F := Ideal) (iblk0 V c 0 t) (ix2 p q) = unitRows (V c main_arg0) (((cfg0.win 1).blk t).view.emb (ix2 p q))
  refine (Cert.KernelIdeal.PayValue.pay_unit0 (iblk0 V c 0 t) p q).trans ?_
  unfold unitRows
  refine unitRow_congr (fun k => ?_) ?_
  · show V c main_arg0 (((cfg0.win 0).blk t).view.emb (ix2 p k)) = V c main_arg0 _
    refine congrArg (V c main_arg0) ?_
    funext a; apply Fin.ext
    match a with
    | ⟨0, _⟩ => show win0_0.index t (0 : Fin 2) * 1024 + 1 * p.val = win0_1.index t (0 : Fin 2) * 1024 + 1 * p.val; omega
    | ⟨1, _⟩ => show win0_0.index t (1 : Fin 2) * 128 + 1 * k.val = k.val; omega
  · apply Fin.ext
    show q.val = win0_1.index t (1 : Fin 2) * 128 + 1 * q.val
    omega

/-- An index of the array is in point `t`'s block iff each coordinate is in the block's range on its axis. -/
theorem mem_blk0 (t : Fin cfg0.N) (i : S4096x128.Idx) :
    i ∈ ((cfg0.win 1).blk t).view.set ↔ ∀ a : Fin 2, win0_1.index t a * S1024x128.size a ≤ (i a).val ∧ (i a).val < win0_1.index t a * S1024x128.size a + S1024x128.size a := by
  show i ∈ ((View.whole main_v0).slice (win0_1.rect t)).set ↔ _
  rw [View.set_slice_whole, Rect.mem_set_unit]
  exact Iff.rfl

/-- Every row of the array is in some point's block: row `r` in block `r / 1024`. -/
theorem cover0 (i : S4096x128.Idx) : ∃ t : Fin cfg0.N, (cfg0.win 1).flush t = true ∧ i ∈ ((cfg0.win 1).blk t).view.set := by
  have hi0 : (i 0).val < 4096 := (i 0).isLt
  have hi1 : (i 1).val < 128 := (i 1).isLt
  have hN : cfg0.N = 4 := N_0
  let t : Fin cfg0.N := ⟨(i 0).val / 1024, by rw [hN]; omega⟩
  obtain ⟨e0, e1, e2, e3⟩ := idx_facts0 t
  have ht : t.val = (i 0).val / 1024 := rfl
  refine ⟨t, flush0_1 t, ?_⟩
  rw [mem_blk0]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 128 ≤ (i 1).val ∧ (i 1).val < win0_1.index t (1 : Fin 2) * 128 + 128; omega

/-- The result array after the region: the scaled rows of the argument as the region finds it. -/
theorem final0 (c : Dev nD) : (dat0 (F := Ideal) V c).arrAt 1 cfg0.N = unitRows (V c main_arg0) :=
  (dat0 (F := Ideal) V c).arrAt_eq_of_cover 1 (unitRows (V c main_arg0)) (fun t _ => flushed0_eq V c t) cover0

end Cert.KernelIdeal.Run

end
-- ==== Proof.Final1.lean ====
/-
  What the second scaling kernel leaves in its result array, on the extended reals: every row of the argument
  divided by its norm.

  Point `t` of the four writes back rows `1024 t .. 1024 t + 1023`: its output block at `(p, q)` is the body's value at
  `(p, q)` of the input block, which is row `p` of the block scaled, entry `q`; row `p` of the input block at point
  `t` is row `1024 t + p` of the argument, and the output block sits at the same rows. The four blocks cover the
  array's 4096 rows (row `r` is in block `r / 1024`), so the array ends holding the scaled rows everywhere.
-/
import proofs.«140498_j17248588661028_2_alg».proof.Proof.Gen.KernelIdeal.Launch
import proofs.«140498_j17248588661028_2_alg».proof.Proof.Gen.KernelIdeal.Skeleton
import proofs.«140498_j17248588661028_2_alg».proof.Proof.Gen.KernelIdeal.Points
import proofs.«140498_j17248588661028_2_alg».proof.Proof.Body1
import proofs.«140498_j17248588661028_2_alg».proof.Proof.Final0
import proofs.«140498_j17248588661028_2_alg».proof.Proof.PayUnit
import proofs.«140498_j17248588661028_2_alg».proof.Proof.Spec
import Idealize.ShloMosaic.Lib.Pipeline.FrameBody
import Idealize.ShloMosaic.Lib.Pipeline.Value
import Idealize.ShloMosaic.Lib.ValueIdx
import Idealize.ShloMosaic.PureOps.Ideal

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The printed index maps over the grid: at point `t` both windows sit at block row `t`, block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is block `t` of the array of scaled rows of the argument as the region finds it. -/
theorem flushed1_eq (c : Dev nD) (t : Fin cfg1.N) :
    (dat1 (F := Ideal) V c).flushed 1 t = ((cfg1.win 1).blk t).view.read (Elt Ideal) (unitRows (V c main_arg1)) := by
  show (cfg1.win 1).cut (grid1.coords t) ((dat1 (F := Ideal) V c).after 1 t) = _
  rw [after1_1]
  unfold out1_1
  rw [View.canon_unit_zero hz0]
  simp only [View.ld_unit_zero (S := S1024x128) hz0]
  obtain ⟨e0, e1, e2, e3⟩ := idx_facts1 t
  funext y
  obtain ⟨p, q, rfl⟩ : ∃ (p : Fin 1024) (q : Fin 128), y = ix2 p q := ⟨y 0, y 1, eq_ix2 y⟩
  show k1_pay1 (F := Ideal) (iblk1 V c 0 t) (ix2 p q) = unitRows (V c main_arg1) (((cfg1.win 1).blk t).view.emb (ix2 p q))
  refine (Cert.KernelIdeal.PayValue.pay_unit1 (iblk1 V c 0 t) p q).trans ?_
  unfold unitRows
  refine unitRow_congr (fun k => ?_) ?_
  · show V c main_arg1 (((cfg1.win 0).blk t).view.emb (ix2 p k)) = V c main_arg1 _
    refine congrArg (V c main_arg1) ?_
    funext a; apply Fin.ext
    match a with
    | ⟨0, _⟩ => show win1_0.index t (0 : Fin 2) * 1024 + 1 * p.val = win1_1.index t (0 : Fin 2) * 1024 + 1 * p.val; omega
    | ⟨1, _⟩ => show win1_0.index t (1 : Fin 2) * 128 + 1 * k.val = k.val; omega
  · apply Fin.ext
    show q.val = win1_1.index t (1 : Fin 2) * 128 + 1 * q.val
    omega

/-- An index of the array is in point `t`'s block iff each coordinate is in the block's range on its axis. -/
theorem mem_blk1 (t : Fin cfg1.N) (i : S4096x128.Idx) :
    i ∈ ((cfg1.win 1).blk t).view.set ↔ ∀ a : Fin 2, win1_1.index t a * S1024x128.size a ≤ (i a).val ∧ (i a).val < win1_1.index t a * S1024x128.size a + S1024x128.size a := by
  show i ∈ ((View.whole main_v1).slice (win1_1.rect t)).set ↔ _
  rw [View.set_slice_whole, Rect.mem_set_unit]
  exact Iff.rfl

/-- Every row of the array is in some point's block: row `r` in block `r / 1024`. -/
theorem cover1 (i : S4096x128.Idx) : ∃ t : Fin cfg1.N, (cfg1.win 1).flush t = true ∧ i ∈ ((cfg1.win 1).blk t).view.set := by
  have hi0 : (i 0).val < 4096 := (i 0).isLt
  have hi1 : (i 1).val < 128 := (i 1).isLt
  have hN : cfg1.N = 4 := N_1
  let t : Fin cfg1.N := ⟨(i 0).val / 1024, by rw [hN]; omega⟩
  obtain ⟨e0, e1, e2, e3⟩ := idx_facts1 t
  have ht : t.val = (i 0).val / 1024 := rfl
  refine ⟨t, flush1_1 t, ?_⟩
  rw [mem_blk1]
  intro a
  match a with
  | ⟨0, _⟩ => show win1_1.index t (0 : Fin 2) * 1024 ≤ (i 0).val ∧ (i 0).val < win1_1.index t (0 : Fin 2) * 1024 + 1024; omega
  | ⟨1, _⟩ => show win1_1.index t (1 : Fin 2) * 128 ≤ (i 1).val ∧ (i 1).val < win1_1.index t (1 : Fin 2) * 128 + 128; omega

/-- The result array after the region: the scaled rows of the argument as the region finds it. -/
theorem final1 (c : Dev nD) : (dat1 (F := Ideal) V c).arrAt 1 cfg1.N = unitRows (V c main_arg1) :=
  (dat1 (F := Ideal) V c).arrAt_eq_of_cover 1 (unitRows (V c main_arg1)) (fun t _ => flushed1_eq V c t) cover1

end Cert.KernelIdeal.Run

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.PayLoss.lean ====
/-
  The block of 128 row losses the third kernel stores at a grid point, entry by entry.

  At grid point `i` the kernel holds the tile of rows `128 * i .. 128 * i + 127` and all 8192 rows. Entry `p` of what
  it stores is the loss of row `a = 128 * i + p`: the similarities of the tile's row `p` with every row `b` are the
  inner products `∑ k, tile[p,k] * rows[b,k]` (a product with the transposed array); the column numbered `a` is
  masked out of the sum of `exp (sim * c)`, and the column numbered `partner a` is picked out of the similarities
  by a sum with one nonzero term. The row numbers are 32-bit words; below 8192 nothing wraps, so a word equals a
  column's number exactly when the numbers agree.
-/
import proofs.«140498_j17248588661028_2_alg».proof.Proof.Gen.KernelIdeal.Skeleton
import proofs.«140498_j17248588661028_2_alg».proof.Proof.Spec
import proofs.«140498_j17248588661028_2_alg».proof.Proof.LibKeepdimsColumn
import proofs.«140498_j17248588661028_2_alg».proof.Proof.LibPlainDot
import Idealize.ShloMosaic.PureOps.IdealRules

noncomputable section

namespace Cert.KernelIdeal.PayValue

open Idealize.ShloMosaic Idealize.ShloMosaic.ValueIdx
open Cert.KernelIdeal Cert.KernelIdeal.Gen

/-! ## The integer side: row numbers and partner numbers as 32-bit words -/

/-- Two words of numbers below 2^32 are equal exactly when the numbers are. -/
private theorem ofNat_inj_of_lt {m n : Nat} (hm : m < 4294967296) (hn : n < 4294967296)
    (h : BitVec.ofNat 32 m = BitVec.ofNat 32 n) : m = n := by
  have := congrArg BitVec.toNat h
  simp only [BitVec.toNat_ofNat] at this
  omega

/-- Block `i0`'s row `p`: the word `i0 * 128 + p` is the word of the row's number `a = 128 * i0 + p` (no wrap: `a < 8192`). -/
private theorem rowWord_eq (i0 : Nat) (p : Fin 128) (a : Fin 8192) (ha : a.val = 128 * i0 + p.val) :
    IntOp.addi (Scalar.muli (BitVec.ofNat 32 i0) 128#32) (BitVec.ofNat 32 p.val) = BitVec.ofNat 32 a.val := by
  apply BitVec.eq_of_toNat_eq
  have h1 := a.isLt
  have h2 := p.isLt
  simp only [IntOp.addi, Scalar.muli, IntOp.muli, BitVec.toNat_add, BitVec.toNat_mul, BitVec.toNat_ofNat]
  omega

/-- The partner's word: `a + 4096` when `a` is below 4096 as a signed word, else `a - 4096`. -/
private theorem partnerWord_eq (a : Fin 8192) :
    Scalar.select (IntOp.cmpi .slt (BitVec.ofNat 32 a.val) 4096#32)
      (IntOp.addi (BitVec.ofNat 32 a.val) 4096#32) (IntOp.subi (BitVec.ofNat 32 a.val) 4096#32)
      = BitVec.ofNat 32 (Cert.Spec.partner a).val := by
  have h1 := a.isLt
  have hN : (BitVec.ofNat 32 a.val).toNat = a.val := by rw [BitVec.toNat_ofNat]; omega
  have hI : (BitVec.ofNat 32 a.val).toInt = (a.val : Int) := by
    rw [BitVec.toInt_eq_toNat_of_lt (by rw [hN]; omega), hN]
  have h4 : (4096#32 : BitVec 32).toInt = 4096 := by decide
  by_cases h : a.val < 4096
  · have hc : IntOp.cmpi .slt (BitVec.ofNat 32 a.val) 4096#32 = 1#1 := IntOp.cmpi_slt.mpr (by rw [hI, h4]; omega)
    rw [hc, select_one]
    unfold Cert.Spec.partner
    rw [dif_pos h]
    apply BitVec.eq_of_toNat_eq
    simp only [IntOp.addi, BitVec.toNat_add, BitVec.toNat_ofNat]
    omega
  · have hc : ¬ IntOp.cmpi .slt (BitVec.ofNat 32 a.val) 4096#32 = 1#1 := fun hh => by
      have := IntOp.cmpi_slt.mp hh
      rw [hI, h4] at this
      omega
    rw [eq_zero_of_ne_one hc, select_zero]
    unfold Cert.Spec.partner
    rw [dif_neg h]
    apply BitVec.eq_of_toNat_eq
    simp only [IntOp.subi, BitVec.toNat_sub, BitVec.toNat_ofNat]
    omega

/-- The row-number column at `(p, 0)`. -/
private theorem rowIdx_apply (i0 : Nat) (p : Fin 128) (a : Fin 8192) (ha : a.val = 128 * i0 + p.val) :
    addi (broadcast S128x1 (Scalar.muli (BitVec.ofNat 32 i0) 128#32)) (iota .tc S128x1 32 [0] iota_S128x1_d0_w32)
      (ix2 p (0 : Fin 1)) = BitVec.ofNat 32 a.val := by
  show IntOp.addi (Scalar.muli (BitVec.ofNat 32 i0) 128#32) (iota .tc S128x1 32 [0] iota_S128x1_d0_w32 (ix2 p (0 : Fin 1))) = _
  rw [iota_single_apply]
  exact rowWord_eq i0 p a ha

/-- The partner-number column at `(p, 0)`, from the row-number column there. -/
private theorem partnerIdx_apply (r : IVec S128x1 32) (p : Fin 128) (a : Fin 8192)
    (hr : r (ix2 p (0 : Fin 1)) = BitVec.ofNat 32 a.val) :
    select (cmpi .slt r (broadcast S128x1 4096#32)) (addi r (broadcast S128x1 4096#32)) (subi r (broadcast S128x1 4096#32))
      (ix2 p (0 : Fin 1)) = BitVec.ofNat 32 (Cert.Spec.partner a).val := by
  show Scalar.select (IntOp.cmpi .slt (r (ix2 p (0 : Fin 1))) 4096#32)
    (IntOp.addi (r (ix2 p (0 : Fin 1))) 4096#32) (IntOp.subi (r (ix2 p (0 : Fin 1))) 4096#32) = _
  rw [hr]
  exact partnerWord_eq a

/-- Column `b` of row `p` is marked by "column number = the row's word" exactly when `b` is the number in that word. -/
private theorem mark_iff (r : IVec S128x1 32) (p : Fin 128) (n : Fin 8192)
    (hr : r (ix2 p (0 : Fin 1)) = BitVec.ofNat 32 n.val) (b : Fin 8192) :
    cmpi .eq (iota .tc S128x8192 32 [1] iota_S128x8192_d1_w32) (broadcastTo S128x8192 r broadcasts_S128x1_S128x8192) (ix2 p b) = 1#1
      ↔ b = n := by
  show IntOp.cmpi .eq (iota .tc S128x8192 32 [1] iota_S128x8192_d1_w32 (ix2 p b))
    (broadcastTo S128x8192 r broadcasts_S128x1_S128x8192 (ix2 p b)) = 1#1 ↔ _
  rw [iota_single_apply, Cert.Gcn.Lib.broadcastTo_a1_ab_apply r broadcasts_S128x1_S128x8192 p b, hr, IntOp.cmpi_eq]
  have h1 := b.isLt
  have h2 := n.isLt
  constructor
  · intro h
    exact Fin.ext (ofNat_inj_of_lt (by show b.val < _; omega) (by omega) h)
  · intro h
    rw [h]

/-! ## The similarities: the tile times the transposed array -/

/-- Entry `(p, b)` of the product of the 128-row tile with the transpose of the 8192-row array is the inner product
    of the tile's row `p` with the array's row `b`: rounding to bf16 and a cast to the same shape change nothing on
    the extended reals, and the transpose at `(k, b)` reads the array at `(b, k)`. -/
private theorem sim_apply (x11 : Vec Ideal S128x128 .f32) (x14 : Vec Ideal S8192x128 .f32) (p : Fin 128) (b : Fin 8192) :
    matmul dot_S128x128_S128x8192_S128x8192_1_0_0_1_n_n none
      (truncf .bf16 (shapeCast S128x128 x11 shapeCasts_S128x128_S128x128 : FVec Ideal S128x128 .f32) bitsLt_bf16_f32)
      (transpose S128x8192 [1, 0]
        (truncf .bf16 (shapeCast S8192x128 x14 shapeCasts_S8192x128_S8192x128 : FVec Ideal S8192x128 .f32) bitsLt_bf16_f32)
        transposes_S8192x128_p1_0_S128x8192)
      (constant S128x8192 .f32 0x00000000#32) (ix2 p b)
      = ∑ k : Fin 128, x11 (ix2 p k) * x14 (ix2 b k) := by
  refine (congrFun (Cert.Lib.PlainDot.matmul_zero_eq (M := 128) (K := 128) (N := 8192)
    dot_S128x128_S128x8192_S128x8192_1_0_0_1_n_n rfl none _ _) (ix2 p b)).trans ?_
  rw [Cert.Lib.PlainDot.rowsByCols_apply]
  refine Finset.sum_congr rfl fun k _ => ?_
  refine congrArg₂ (· * ·) ?_ ?_
  · show shapeCast S128x128 x11 shapeCasts_S128x128_S128x128 (ix2 p k) = _
    rw [shapeCast_self]
  · refine (transpose_apply [1, 0] _ transposes_S8192x128_p1_0_S128x8192 (ix2 k b) (ix2 b k) fun d => ?_).trans ?_
    · match d with
      | ⟨0, _⟩ => rfl
      | ⟨1, _⟩ => rfl
    · show shapeCast S8192x128 x14 shapeCasts_S8192x128_S8192x128 (ix2 b k) = _
      rw [shapeCast_self]

/-! ## The two lane sums -/

/-- A lane sum of a selection, at row `p`: the sum over the 8192 columns of the selected entries. -/
private theorem sum_select_apply (m : IVec S128x8192 1) (x y : FVec Ideal S128x8192 .f32) (p : Fin 128) :
    multiReduction .add [1] S128 (select m x y) 0x00000000#32 reduces_S128x8192_S128 (.inl rfl) rfl (ix1 p)
      = ∑ b : Fin 8192, Scalar.select (m (ix2 p b)) (x (ix2 p b)) (y (ix2 p b)) :=
  Cert.Gcn.Lib.rowsum_apply (a := 128) (b := 8192) (select m x y) reduces_S128x8192_S128 (.inl rfl) rfl p

/-- A selection by a mark that holds exactly at column `n` is the `if` on the column. -/
private theorem select_mark (m : IVec S128x8192 1) (p : Fin 128) (n b : Fin 8192)
    (hm : m (ix2 p b) = 1#1 ↔ b = n) (u v : EReal) :
    Scalar.select (m (ix2 p b)) u v = if b = n then u else v := by
  by_cases h : b = n
  · rw [hm.mpr h, select_one, if_pos h]
  · rw [eq_zero_of_ne_one (fun hh => h (hm.mp hh)), select_zero, if_neg h]

/-- Row `p`'s value from the row-number column `r`, the partner-number column `q`, the similarities and the
    scale: the log of the sum, over the columns other than the row's own, of `exp (sim * c)`, less the partner
    column's similarity times `c` (a sum with one nonzero term). -/
private theorem loss_at (r q : IVec S128x1 32) (sim : FVec Ideal S128x8192 .f32) (c : EReal) (p : Fin 128) (a : Fin 8192)
    (hr : r (ix2 p (0 : Fin 1)) = BitVec.ofNat 32 a.val)
    (hq : q (ix2 p (0 : Fin 1)) = BitVec.ofNat 32 (Cert.Spec.partner a).val) :
    subf (log (multiReduction .add [1] S128
        (select (cmpi .eq (iota .tc S128x8192 32 [1] iota_S128x8192_d1_w32) (broadcastTo S128x8192 r broadcasts_S128x1_S128x8192))
          (broadcast S128x8192 (Scalar.ofBits .f32 0x00000000#32)) (exp (mulf sim (broadcast S128x8192 c))))
        0x00000000#32 reduces_S128x8192_S128 (.inl rfl) rfl))
      (mulf (multiReduction .add [1] S128
        (select (cmpi .eq (iota .tc S128x8192 32 [1] iota_S128x8192_d1_w32) (broadcastTo S128x8192 q broadcasts_S128x1_S128x8192))
          sim (broadcast S128x8192 (Scalar.ofBits .f32 0x00000000#32)))
        0x00000000#32 reduces_S128x8192_S128 (.inl rfl) rfl) (broadcast S128 c)) (ix1 p)
      = Ideal.log (∑ b : Fin 8192, if b = a then (0 : EReal) else Ideal.exp (sim (ix2 p b) * c))
        - sim (ix2 p (Cert.Spec.partner a)) * c := by
  have hz : (Scalar.ofBits .f32 0x00000000#32 : Ideal .f32) = 0 := Ideal.ofBits_zero_f32
  show Ideal.log (multiReduction (F := Ideal) .add [1] S128 _ 0x00000000#32 reduces_S128x8192_S128 (.inl rfl) rfl (ix1 p))
    - multiReduction (F := Ideal) .add [1] S128 _ 0x00000000#32 reduces_S128x8192_S128 (.inl rfl) rfl (ix1 p) * c = _
  rw [sum_select_apply, sum_select_apply]
  refine congrArg₂ (fun s t => Ideal.log s - t * c) ?_ ?_
  · refine Finset.sum_congr rfl fun b _ => ?_
    refine (select_mark _ p a b (mark_iff r p a hr b) _ _).trans ?_
    show (if b = a then (Scalar.ofBits .f32 0x00000000#32 : Ideal .f32) else Ideal.exp (sim (ix2 p b) * c)) = _
    rw [hz]
  · refine (Finset.sum_congr rfl fun b _ =>
      select_mark _ p (Cert.Spec.partner a) b (mark_iff q p (Cert.Spec.partner a) hq b) _ _).trans ?_
    show (∑ b : Fin 8192, if b = Cert.Spec.partner a then sim (ix2 p b) else (Scalar.ofBits .f32 0x00000000#32 : Ideal .f32)) = _
    rw [hz, Finset.sum_ite_eq' Finset.univ (Cert.Spec.partner a) fun b => sim (ix2 p b), if_pos (Finset.mem_univ _)]

/-! ## The payload -/

/-- The scale the kernel multiplies by is the specification's `invT`. -/
private theorem scale_eq :
    Named.named (F := Ideal) Cert.KernelIdeal.κ "inv_t" (φ := .f32) 0x41200000#32 = Cert.Spec.invT :=
  IdealRules.named_const.ideal_named_scalar _ _ _ _ rfl

/-- Entry `p` of the block the kernel stores at grid point `i` is the loss of row `a = 128 * i + p`, computed from the
    tile's row `p` and the 8192 rows of the second array. -/
theorem pay_rowLoss (i : grid2.Coords) (x11 : Vec Ideal S128x128 .f32) (x14 : Vec Ideal S8192x128 .f32) (p : Fin 128)
    (a : Fin 8192) (ha : a.val = 128 * (i 0).val + p.val) :
    k2_pay1 (F := Ideal) i x11 x14 (ix1 p) = Cert.Spec.rowLossAt (fun k => x11 (ix2 p k)) (fun b k => x14 (ix2 b k)) a := by
  unfold k2_pay1
  refine (loss_at _ _ _ _ p a ?_ ?_).trans ?_
  · exact rowIdx_apply (i 0).val p a ha
  · exact partnerIdx_apply _ p a (rowIdx_apply (i 0).val p a ha)
  · rw [scale_eq]
    unfold Cert.Spec.rowLossAt
    refine congrArg₂ (fun s t => Ideal.log s - t * Cert.Spec.invT) ?_ ?_
    · refine Finset.sum_congr rfl fun b _ => ?_
      rw [sim_apply]
    · exact sim_apply x11 x14 p (Cert.Spec.partner a)

end Cert.KernelIdeal.PayValue

end
-- ==== Proof.Final2.lean ====
/-
  What the loss kernel leaves in its result array, on the extended reals: the 8192 row losses among the rows `z` it
  finds in the array of scaled rows.

  Point `t` of the 64 writes back entries `128 t .. 128 t + 127`: its output block at `p` is the body's value at `p` of
  the tile (rows `128 t .. 128 t + 127` of `z`) and of the whole array `z`, which is the loss of row `128 t + p` among
  the rows of `z`. The 64 blocks cover the array's 8192 entries (entry `a` is in block `a / 128`).
-/
import proofs.«140498_j17248588661028_2_alg».proof.Proof.Gen.KernelIdeal.Launch
import proofs.«140498_j17248588661028_2_alg».proof.Proof.Gen.KernelIdeal.Skeleton
import proofs.«140498_j17248588661028_2_alg».proof.Proof.Gen.KernelIdeal.Points
import proofs.«140498_j17248588661028_2_alg».proof.Proof.Body2
import proofs.«140498_j17248588661028_2_alg».proof.Proof.PayLoss
import proofs.«140498_j17248588661028_2_alg».proof.Proof.Result
import Idealize.ShloMosaic.Lib.Pipeline.FrameBody
import Idealize.ShloMosaic.Lib.Pipeline.Value
import Idealize.ShloMosaic.Lib.ValueIdx
import Idealize.ShloMosaic.PureOps.Ideal

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- A row's loss from the row itself and all the rows is its loss among the rows, when the row is one of them. -/
theorem rowLoss_of {zrow : Fin 128 → EReal} {z Z : Fin 8192 → Fin 128 → EReal} {a a' : Fin 8192}
    (hz : z = Z) (ha : a = a') (hr : ∀ k, zrow k = Z a k) :
    Cert.Spec.rowLossAt zrow z a = Cert.Spec.rowLoss Z a' := by
  subst hz ha; unfold Cert.Spec.rowLoss; rw [show zrow = z a from funext hr]

/-- The printed index maps over the grid: at point `t` the tile window sits at block row `t`, the whole-array window at
    block 0, the output window at block `t`; the point's one coordinate is `t`. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 1) = t.val ∧ ((grid2.coords t) 0).val = t.val :=
  (by decide +kernel : ∀ t : Fin grid2.N, _)

/-- What point `t` writes back is block `t` of the row losses among the rows the region finds. -/
theorem flushed2_eq (c : Dev nD) (t : Fin cfg2.N) :
    (dat2 (F := Ideal) V c).flushed 2 t = ((cfg2.win 2).blk t).view.read (Elt Ideal) (rowLosses (V c main_v2)) := by
  show (cfg2.win 2).cut (grid2.coords t) ((dat2 (F := Ideal) V c).after 2 t) = _
  rw [after2_2]
  unfold out2_2
  rw [View.canon_unit_zero hz1]
  simp only [View.ld_unit_zero (S := S128x128) hz2, View.ld_unit_zero (S := S8192x128) hz2]
  obtain ⟨e0, e1, e2, e3, e4, e5⟩ := idx_facts2 t
  have hN : cfg2.N = 64 := N_2
  have htl : t.val < 64 := hN ▸ t.isLt
  funext y
  obtain ⟨p, rfl⟩ : ∃ p : Fin 128, y = ix1 p := ⟨y 0, eq_ix1 y⟩
  have hp : p.val < 128 := p.isLt
  have ha : 128 * t.val + p.val < 8192 := by omega
  show k2_pay1 (F := Ideal) (grid2.coords t) (iblk2 V c 0 t) (iblk2 V c 1 t) (ix1 p) = rowLosses (V c main_v2) (((cfg2.win 2).blk t).view.emb (ix1 p))
  refine (Cert.KernelIdeal.PayValue.pay_rowLoss (grid2.coords t) (iblk2 V c 0 t) (iblk2 V c 1 t) p ⟨128 * t.val + p.val, ha⟩
    (show 128 * t.val + p.val = 128 * ((grid2.coords t) 0).val + p.val by rw [e5])).trans ?_
  unfold rowLosses
  refine rowLoss_of ?_ ?_ (fun k => ?_)
  · funext b k
    show V c main_v2 (((cfg2.win 1).blk t).view.emb (ix2 b k)) = V c main_v2 (ix2 b k)
    refine congrArg (V c main_v2) ?_
    funext a; apply Fin.ext
    match a with
    | ⟨0, _⟩ => show win2_1.index t (0 : Fin 2) * 8192 + 1 * b.val = b.val; omega
    | ⟨1, _⟩ => show win2_1.index t (1 : Fin 2) * 128 + 1 * k.val = k.val; omega
  · apply Fin.ext
    show 128 * t.val + p.val = win2_2.index t (0 : Fin 1) * 128 + 1 * p.val
    omega
  · show V c main_v2 (((cfg2.win 0).blk t).view.emb (ix2 p k)) = V c main_v2 (ix2 (⟨128 * t.val + p.val, ha⟩ : Fin 8192) k)
    refine congrArg (V c main_v2) ?_
    funext a; apply Fin.ext
    match a with
    | ⟨0, _⟩ => show win2_0.index t (0 : Fin 2) * 128 + 1 * p.val = 128 * t.val + p.val; omega
    | ⟨1, _⟩ => show win2_0.index t (1 : Fin 2) * 128 + 1 * k.val = k.val; omega

/-- An index of the array is in point `t`'s block iff its coordinate is in the block's range. -/
theorem mem_blk2 (t : Fin cfg2.N) (i : S8192.Idx) :
    i ∈ ((cfg2.win 2).blk t).view.set ↔ ∀ a : Fin 1, win2_2.index t a * S128.size a ≤ (i a).val ∧ (i a).val < win2_2.index t a * S128.size a + S128.size a := by
  show i ∈ ((View.whole main_v3).slice (win2_2.rect t)).set ↔ _
  rw [View.set_slice_whole, Rect.mem_set_unit]
  exact Iff.rfl

/-- Every entry of the array is in some point's block: entry `a` in block `a / 128`. -/
theorem cover2 (i : S8192.Idx) : ∃ t : Fin cfg2.N, (cfg2.win 2).flush t = true ∧ i ∈ ((cfg2.win 2).blk t).view.set := by
  have hi0 : (i 0).val < 8192 := (i 0).isLt
  have hN : cfg2.N = 64 := N_2
  let t : Fin cfg2.N := ⟨(i 0).val / 128, by rw [hN]; omega⟩
  obtain ⟨e0, e1, e2, e3, e4, e5⟩ := idx_facts2 t
  have ht : t.val = (i 0).val / 128 := rfl
  refine ⟨t, flush2_2 t, ?_⟩
  rw [mem_blk2]
  intro a
  match a with
  | ⟨0, _⟩ => show win2_2.index t (0 : Fin 1) * 128 ≤ (i 0).val ∧ (i 0).val < win2_2.index t (0 : Fin 1) * 128 + 128; omega

/-- The result array after the region: the row losses among the rows the region finds in the array of scaled rows. -/
theorem final2 (c : Dev nD) : (dat2 (F := Ideal) V c).arrAt 2 cfg2.N = rowLosses (V c main_v2) :=
  (dat2 (F := Ideal) V c).arrAt_eq_of_cover 2 (rowLosses (V c main_v2)) (fun t _ => flushed2_eq V c t) cover2

end Cert.KernelIdeal.Run

end
-- ==== Proof.KValue.lean ====
/-
  What the idealized program returns, on the extended reals: the mean of the row losses among the scaled rows of its
  two arguments.

  Read back through the boundaries of the run: the result buffer after the last two host operations is the mean of
  the loss kernel's array; that array holds the row losses among the rows the kernel found; those rows are the join of
  the two scaling kernels' arrays; and each of those holds the scaled rows of an argument, which no item has written.
-/
import proofs.«140498_j17248588661028_2_alg».proof.Proof.Run
import proofs.«140498_j17248588661028_2_alg».proof.Proof.Final0
import proofs.«140498_j17248588661028_2_alg».proof.Proof.Final1
import proofs.«140498_j17248588661028_2_alg».proof.Proof.Final2
import proofs.«140498_j17248588661028_2_alg».proof.Proof.PayUnit
import proofs.«140498_j17248588661028_2_alg».proof.Proof.Result
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- The second argument as the second scaling kernel finds it: as launched. -/
theorem V1_arg1 (c : Dev nD) : V1 m ρ c main_arg1 = m ((c : Thread nD τ).loc main_arg1) :=
  (W1_of_ne m ρ c main_arg1 (by decide)).trans rfl

/-- After both scaling kernels the first result array holds the scaled rows of the first argument, -/
theorem W2_v0 (c : Dev nD) : W2 m ρ c (Proc.devRef .tc main_v0) = unitRows (m ((c : Thread nD τ).loc main_arg0)) :=
  (W2_of_ne m ρ c main_v0 (by decide)).trans ((W1_arr m ρ c 1).trans (final0 (V0 m ρ) c))

/-- and the second those of the second. -/
theorem W2_v1 (c : Dev nD) : W2 m ρ c (Proc.devRef .tc main_v1) = unitRows (m ((c : Thread nD τ).loc main_arg1)) :=
  (W2_arr m ρ c 1).trans ((final1 (V1 m ρ) c).trans (congrArg unitRows (V1_arg1 m ρ c)))

/-- The rows the loss kernel finds: the two arrays of scaled rows joined. -/
theorem W3_rows (c : Dev nD) :
    W3 m ρ c (Proc.devRef .tc main_v2) = rowsOf (m ((c : Thread nD τ).loc main_arg0)) (m ((c : Thread nD τ).loc main_arg1)) := by
  have e : W3 m ρ c (Proc.devRef .tc main_v2)
      = concatenate S8192x128 0 [⟨S4096x128, W2 m ρ c (Proc.devRef .tc main_v0)⟩, ⟨S4096x128, W2 m ρ c (Proc.devRef .tc main_v1)⟩]
          concatenates_S4096x128_S4096x128_S8192x128_d0 := by
    show StableHlo.after hostOps2 (W2 m ρ c) (Proc.devRef .tc main_v2) = _
    after_results
  rw [e, W2_v0, W2_v1]
  rfl

/-- The result buffer at the end: the mean of the row losses among the scaled rows of the two arguments. -/
theorem W5_result (c : Dev nD) :
    W5 m ρ c (Proc.devRef .tc main_v5) = result (m ((c : Thread nD τ).loc main_arg0)) (m ((c : Thread nD τ).loc main_arg1)) := by
  have e : W5 m ρ c (Proc.devRef .tc main_v5)
      = Host.divf (F := Ideal) (Host.reduceAdd (F := Ideal) (W4 m ρ c (Proc.devRef .tc main_v3)) (constant (F := Ideal) S_ .f32 0x00000000#32) reducesTo_S8192_S_d0 h_S_)
          (constant (F := Ideal) S_ .f32 0x46000000#32) := by
    show StableHlo.after hostOps3 (W4 m ρ c) (Proc.devRef .tc main_v5) = _
    after_results
  rw [e, Cert.KernelIdeal.PayValue.tail_mean, W4_out, final2 (V3 m ρ) c, show V3 m ρ c main_v2 = _ from W3_rows m ρ c]
  rfl

/-- THE RUN, READ: every weakly fair execution terminates with the result buffer at `result` of the arguments as
    launched, and the arguments unchanged. -/
theorem run_value : θ_run defs (onTc (τ := τ) (main (F := Ideal))) ⟨m, fun _ => 0, ρ⟩ (fun r => ∀ c : Dev nD,
      r.2.mem ((c.tc : Thread nD τ).loc main_v5) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v5 (by decide))).trans (W5_result m ρ c),
     (h c _ (mem_uc main_arg0 (by decide))).trans (W5_main_arg0 m ρ c),
     (h c _ (mem_uc main_arg1 (by decide))).trans (W5_main_arg1 m ρ c)⟩) (run_all m ρ)

end Cert.KernelIdeal.Run

end
-- ==== Proof.RefRun.lean ====
/-
  The idealized reference's run, read: every weakly fair execution of it terminates, its result buffer holding the
  last stage's value of the two arguments (`val_main_v71`) and the arguments unchanged.

  The program is a straight line of 93 host operations. The contents of a buffer after the line are a fold over the
  operations; reading that fold at the result buffer through all 93 at once is slow, so the line is cut into four
  stretches where few values are live: up to the 8192 x 8192 matrix of inner products (`main_v18`); up to the first
  gather (`main_v35`; the row iota `main_v19` is read again later); up to the positives (`main_v52`); the rest. Each
  stretch is read by itself, from any contents at which the values it reads are the stages' values; a stretch leaves
  the buffers it does not write as they were; and the fold over the whole line is the folds composed.
-/
import proofs.«140498_j17248588661028_2_alg».proof.Proof.Gen.ReferenceIdeal
import proofs.«140498_j17248588661028_2_alg».proof.Proof.ReadP
import Idealize.ShloMosaic.Lib.StableHlo.Run

noncomputable section

namespace Cert.ReferenceIdeal.RefRun

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- The fold over two lines run one after the other is the second's fold of the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operations up to the matrix of inner products. -/
abbrev opsA : List (HloOp τ sig (Elt F)) :=
  [ binary main_arg0 main_arg0 main_v0 (mulf : (⟨S4096x128, .f32⟩ : BufTy).Contents (Elt F) → (⟨S4096x128, .f32⟩ : BufTy).Contents (Elt F) → (⟨S4096x128, .f32⟩ : BufTy).Contents (Elt F)),
    nullary main_cst (constant S_ .f32 0x00000000#32),
    binary main_v0 main_cst main_v1 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v1 main_v2 (broadcastInDim S4096x1 ![0] bcast_S4096_S4096x1_0 : (⟨S4096, .f32⟩ : BufTy).Contents (Elt F) → (⟨S4096x1, .f32⟩ : BufTy).Contents (Elt F)),
    unary main_v2 main_v3 (Host.sqrt : (⟨S4096x1, .f32⟩ : BufTy).Contents (Elt F) → (⟨S4096x1, .f32⟩ : BufTy).Contents (Elt F)),
    nullary main_cst_0 (constant S_ .f32 0x2B8CBCCC#32),
    unary main_cst_0 main_v4 (broadcastInDim S4096x1 ![] bcast_S_S4096x1 : (⟨S_, .f32⟩ : BufTy).Contents (Elt F) → (⟨S4096x1, .f32⟩ : BufTy).Contents (Elt F)),
    binary main_v3 main_v4 main_v5 (maximumf : (⟨S4096x1, .f32⟩ : BufTy).Contents (Elt F) → (⟨S4096x1, .f32⟩ : BufTy).Contents (Elt F) → (⟨S4096x1, .f32⟩ : BufTy).Contents (Elt F)),
    unary main_v5 main_v6 (broadcastInDim S4096x128 ![0, 1] bcast_S4096x1_S4096x128_0_1 : (⟨S4096x1, .f32⟩ : BufTy).Contents (Elt F) → (⟨S4096x128, .f32⟩ : BufTy).Contents (Elt F)),
    binary main_arg0 main_v6 main_v7 (Host.divf : (⟨S4096x128, .f32⟩ : BufTy).Contents (Elt F) → (⟨S4096x128, .f32⟩ : BufTy).Contents (Elt F) → (⟨S4096x128, .f32⟩ : BufTy).Contents (Elt F)),
    binary main_arg1 main_arg1 main_v8 (mulf : (⟨S4096x128, .f32⟩ : BufTy).Contents (Elt F) → (⟨S4096x128, .f32⟩ : BufTy).Contents (Elt F) → (⟨S4096x128, .f32⟩ : BufTy).Contents (Elt F)),
    nullary main_cst_1 (constant S_ .f32 0x00000000#32),
    binary main_v8 main_cst_1 main_v9 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v9 main_v10 (broadcastInDim S4096x1 ![0] bcast_S4096_S4096x1_0 : (⟨S4096, .f32⟩ : BufTy).Contents (Elt F) → (⟨S4096x1, .f32⟩ : BufTy).Contents (Elt F)),
    unary main_v10 main_v11 (Host.sqrt : (⟨S4096x1, .f32⟩ : BufTy).Contents (Elt F) → (⟨S4096x1, .f32⟩ : BufTy).Contents (Elt F)),
    nullary main_cst_2 (constant S_ .f32 0x2B8CBCCC#32),
    unary main_cst_2 main_v12 (broadcastInDim S4096x1 ![] bcast_S_S4096x1 : (⟨S_, .f32⟩ : BufTy).Contents (Elt F) → (⟨S4096x1, .f32⟩ : BufTy).Contents (Elt F)),
    binary main_v11 main_v12 main_v13 (maximumf : (⟨S4096x1, .f32⟩ : BufTy).Contents (Elt F) → (⟨S4096x1, .f32⟩ : BufTy).Contents (Elt F) → (⟨S4096x1, .f32⟩ : BufTy).Contents (Elt F)),
    unary main_v13 main_v14 (broadcastInDim S4096x128 ![0, 1] bcast_S4096x1_S4096x128_0_1 : (⟨S4096x1, .f32⟩ : BufTy).Contents (Elt F) → (⟨S4096x128, .f32⟩ : BufTy).Contents (Elt F)),
    binary main_arg1 main_v14 main_v15 (Host.divf : (⟨S4096x128, .f32⟩ : BufTy).Contents (Elt F) → (⟨S4096x128, .f32⟩ : BufTy).Contents (Elt F) → (⟨S4096x128, .f32⟩ : BufTy).Contents (Elt F)),
    binary main_v7 main_v15 main_v16 ((fun a b => concatenate S8192x128 0 [⟨S4096x128, a⟩, ⟨S4096x128, b⟩] concatenates_S4096x128_S4096x128_S8192x128_d0) : (⟨S4096x128, .f32⟩ : BufTy).Contents (Elt F) → (⟨S4096x128, .f32⟩ : BufTy).Contents (Elt F) → (⟨S8192x128, .f32⟩ : BufTy).Contents (Elt F)),
    unary main_v16 main_v17 ((transpose S128x8192 [1, 0] · transposes_S8192x128_S128x8192_1_0) : (⟨S8192x128, .f32⟩ : BufTy).Contents (Elt F) → (⟨S128x8192, .f32⟩ : BufTy).Contents (Elt F)),
    binary main_v16 main_v17 main_v18 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)) ]

/-- The operations from the row iota up to the first gather. -/
abbrev opsB1 : List (HloOp τ sig (Elt F)) :=
  [ nullary main_v19 (iotaInDim S4096 32 0),
    nullary main_c (constantI S_ 32 4096#32),
    unary main_c main_v20 (broadcastInDim S4096 ![] bcast_S_S4096 : (⟨S_, .i32⟩ : BufTy).Contents (Elt F) → (⟨S4096, .i32⟩ : BufTy).Contents (Elt F)),
    binary main_v19 main_v20 main_v21 (addi : (⟨S4096, .i32⟩ : BufTy).Contents (Elt F) → (⟨S4096, .i32⟩ : BufTy).Contents (Elt F) → (⟨S4096, .i32⟩ : BufTy).Contents (Elt F)),
    nullary main_c_3 (constantI S_ 32 0#32),
    unary main_c_3 main_v22 (broadcastInDim S4096 ![] bcast_S_S4096 : (⟨S_, .i32⟩ : BufTy).Contents (Elt F) → (⟨S4096, .i32⟩ : BufTy).Contents (Elt F)),
    binary main_v19 main_v22 main_v23 (cmpi .slt : (⟨S4096, .i32⟩ : BufTy).Contents (Elt F) → (⟨S4096, .i32⟩ : BufTy).Contents (Elt F) → (⟨S4096, .i1⟩ : BufTy).Contents (Elt F)),
    nullary main_c_4 (constantI S_ 32 8192#32),
    unary main_c_4 main_v24 (broadcastInDim S4096 ![] bcast_S_S4096 : (⟨S_, .i32⟩ : BufTy).Contents (Elt F) → (⟨S4096, .i32⟩ : BufTy).Contents (Elt F)),
    binary main_v19 main_v24 main_v25 (addi : (⟨S4096, .i32⟩ : BufTy).Contents (Elt F) → (⟨S4096, .i32⟩ : BufTy).Contents (Elt F) → (⟨S4096, .i32⟩ : BufTy).Contents (Elt F)),
    ternary main_v23 main_v25 main_v19 main_v26 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_5 (constantI S_ 32 0#32),
    unary main_c_5 main_v27 (broadcastInDim S4096 ![] bcast_S_S4096 : (⟨S_, .i32⟩ : BufTy).Contents (Elt F) → (⟨S4096, .i32⟩ : BufTy).Contents (Elt F)),
    binary main_v21 main_v27 main_v28 (cmpi .slt : (⟨S4096, .i32⟩ : BufTy).Contents (Elt F) → (⟨S4096, .i32⟩ : BufTy).Contents (Elt F) → (⟨S4096, .i1⟩ : BufTy).Contents (Elt F)),
    nullary main_c_6 (constantI S_ 32 8192#32),
    unary main_c_6 main_v29 (broadcastInDim S4096 ![] bcast_S_S4096 : (⟨S_, .i32⟩ : BufTy).Contents (Elt F) → (⟨S4096, .i32⟩ : BufTy).Contents (Elt F)),
    binary main_v21 main_v29 main_v30 (addi : (⟨S4096, .i32⟩ : BufTy).Contents (Elt F) → (⟨S4096, .i32⟩ : BufTy).Contents (Elt F) → (⟨S4096, .i32⟩ : BufTy).Contents (Elt F)),
    ternary main_v28 main_v30 main_v21 main_v31 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v26 main_v32 (broadcastInDim S4096x1 ![0] bcast_S4096_S4096x1_0 : (⟨S4096, .i32⟩ : BufTy).Contents (Elt F) → (⟨S4096x1, .i32⟩ : BufTy).Contents (Elt F)),
    unary main_v31 main_v33 (broadcastInDim S4096x1 ![0] bcast_S4096_S4096x1_0 : (⟨S4096, .i32⟩ : BufTy).Contents (Elt F) → (⟨S4096x1, .i32⟩ : BufTy).Contents (Elt F)),
    binary main_v32 main_v33 main_v34 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v18 main_v34 main_v35 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)) ]

/-- The operations up to the positives. -/
abbrev opsB2 : List (HloOp τ sig (Elt F)) :=
  [ nullary main_c_7 (constantI S_ 32 4096#32),
    unary main_c_7 main_v36 (broadcastInDim S4096 ![] bcast_S_S4096 : (⟨S_, .i32⟩ : BufTy).Contents (Elt F) → (⟨S4096, .i32⟩ : BufTy).Contents (Elt F)),
    binary main_v19 main_v36 main_v37 (addi : (⟨S4096, .i32⟩ : BufTy).Contents (Elt F) → (⟨S4096, .i32⟩ : BufTy).Contents (Elt F) → (⟨S4096, .i32⟩ : BufTy).Contents (Elt F)),
    nullary main_c_8 (constantI S_ 32 0#32),
    unary main_c_8 main_v38 (broadcastInDim S4096 ![] bcast_S_S4096 : (⟨S_, .i32⟩ : BufTy).Contents (Elt F) → (⟨S4096, .i32⟩ : BufTy).Contents (Elt F)),
    binary main_v37 main_v38 main_v39 (cmpi .slt : (⟨S4096, .i32⟩ : BufTy).Contents (Elt F) → (⟨S4096, .i32⟩ : BufTy).Contents (Elt F) → (⟨S4096, .i1⟩ : BufTy).Contents (Elt F)),
    nullary main_c_9 (constantI S_ 32 8192#32),
    unary main_c_9 main_v40 (broadcastInDim S4096 ![] bcast_S_S4096 : (⟨S_, .i32⟩ : BufTy).Contents (Elt F) → (⟨S4096, .i32⟩ : BufTy).Contents (Elt F)),
    binary main_v37 main_v40 main_v41 (addi : (⟨S4096, .i32⟩ : BufTy).Contents (Elt F) → (⟨S4096, .i32⟩ : BufTy).Contents (Elt F) → (⟨S4096, .i32⟩ : BufTy).Contents (Elt F)),
    ternary main_v39 main_v41 main_v37 main_v42 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_10 (constantI S_ 32 0#32),
    unary main_c_10 main_v43 (broadcastInDim S4096 ![] bcast_S_S4096 : (⟨S_, .i32⟩ : BufTy).Contents (Elt F) → (⟨S4096, .i32⟩ : BufTy).Contents (Elt F)),
    binary main_v19 main_v43 main_v44 (cmpi .slt : (⟨S4096, .i32⟩ : BufTy).Contents (Elt F) → (⟨S4096, .i32⟩ : BufTy).Contents (Elt F) → (⟨S4096, .i1⟩ : BufTy).Contents (Elt F)),
    nullary main_c_11 (constantI S_ 32 8192#32),
    unary main_c_11 main_v45 (broadcastInDim S4096 ![] bcast_S_S4096 : (⟨S_, .i32⟩ : BufTy).Contents (Elt F) → (⟨S4096, .i32⟩ : BufTy).Contents (Elt F)),
    binary main_v19 main_v45 main_v46 (addi : (⟨S4096, .i32⟩ : BufTy).Contents (Elt F) → (⟨S4096, .i32⟩ : BufTy).Contents (Elt F) → (⟨S4096, .i32⟩ : BufTy).Contents (Elt F)),
    ternary main_v44 main_v46 main_v19 main_v47 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v42 main_v48 (broadcastInDim S4096x1 ![0] bcast_S4096_S4096x1_0 : (⟨S4096, .i32⟩ : BufTy).Contents (Elt F) → (⟨S4096x1, .i32⟩ : BufTy).Contents (Elt F)),
    unary main_v47 main_v49 (broadcastInDim S4096x1 ![0] bcast_S4096_S4096x1_0 : (⟨S4096, .i32⟩ : BufTy).Contents (Elt F) → (⟨S4096x1, .i32⟩ : BufTy).Contents (Elt F)),
    binary main_v48 main_v49 main_v50 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v18 main_v50 main_v51 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)),
    binary main_v35 main_v51 main_v52 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)) ]

/-- The mask, the masked row sums, the row losses and their mean. -/
abbrev opsC : List (HloOp τ sig (Elt F)) :=
  [ nullary main_v53 (iotaInDim S8192x8192 32 0),
    nullary main_v54 (iotaInDim S8192x8192 32 1),
    nullary main_c_12 (constantI S_ 32 0#32),
    unary main_c_12 main_v55 (broadcastInDim S8192x8192 ![] bcast_S_S8192x8192 : (⟨S_, .i32⟩ : BufTy).Contents (Elt F) → (⟨S8192x8192, .i32⟩ : BufTy).Contents (Elt F)),
    binary main_v53 main_v55 main_v56 (addi : (⟨S8192x8192, .i32⟩ : BufTy).Contents (Elt F) → (⟨S8192x8192, .i32⟩ : BufTy).Contents (Elt F) → (⟨S8192x8192, .i32⟩ : BufTy).Contents (Elt F)),
    binary main_v56 main_v54 main_v57 (cmpi .eq : (⟨S8192x8192, .i32⟩ : BufTy).Contents (Elt F) → (⟨S8192x8192, .i32⟩ : BufTy).Contents (Elt F) → (⟨S8192x8192, .i1⟩ : BufTy).Contents (Elt F)),
    unary main_v57 main_v58 (uitofp .f32 : (⟨S8192x8192, .i1⟩ : BufTy).Contents (Elt F) → (⟨S8192x8192, .f32⟩ : BufTy).Contents (Elt F)),
    nullary main_cst_13 (constant S_ .f32 0x3F800000#32),
    unary main_cst_13 main_v59 (broadcastInDim S8192x8192 ![] bcast_S_S8192x8192 : (⟨S_, .f32⟩ : BufTy).Contents (Elt F) → (⟨S8192x8192, .f32⟩ : BufTy).Contents (Elt F)),
    binary main_v59 main_v58 main_v60 (subf : (⟨S8192x8192, .f32⟩ : BufTy).Contents (Elt F) → (⟨S8192x8192, .f32⟩ : BufTy).Contents (Elt F) → (⟨S8192x8192, .f32⟩ : BufTy).Contents (Elt F)),
    nullary main_cst_14 (constant S_ .f32 0x3DCCCCCD#32),
    unary main_cst_14 main_v61 (broadcastInDim S8192x8192 ![] bcast_S_S8192x8192 : (⟨S_, .f32⟩ : BufTy).Contents (Elt F) → (⟨S8192x8192, .f32⟩ : BufTy).Contents (Elt F)),
    binary main_v18 main_v61 main_v62 (Host.divf : (⟨S8192x8192, .f32⟩ : BufTy).Contents (Elt F) → (⟨S8192x8192, .f32⟩ : BufTy).Contents (Elt F) → (⟨S8192x8192, .f32⟩ : BufTy).Contents (Elt F)),
    unary main_v62 main_v63 (Host.exp : (⟨S8192x8192, .f32⟩ : BufTy).Contents (Elt F) → (⟨S8192x8192, .f32⟩ : BufTy).Contents (Elt F)),
    binary main_v60 main_v63 main_v64 (mulf : (⟨S8192x8192, .f32⟩ : BufTy).Contents (Elt F) → (⟨S8192x8192, .f32⟩ : BufTy).Contents (Elt F) → (⟨S8192x8192, .f32⟩ : BufTy).Contents (Elt F)),
    nullary main_cst_15 (constant S_ .f32 0x00000000#32),
    binary main_v64 main_cst_15 main_v65 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v65 main_v66 (Host.log : (⟨S8192, .f32⟩ : BufTy).Contents (Elt F) → (⟨S8192, .f32⟩ : BufTy).Contents (Elt F)),
    nullary main_cst_16 (constant S_ .f32 0x3DCCCCCD#32),
    unary main_cst_16 main_v67 (broadcastInDim S8192 ![] bcast_S_S8192 : (⟨S_, .f32⟩ : BufTy).Contents (Elt F) → (⟨S8192, .f32⟩ : BufTy).Contents (Elt F)),
    binary main_v52 main_v67 main_v68 (Host.divf : (⟨S8192, .f32⟩ : BufTy).Contents (Elt F) → (⟨S8192, .f32⟩ : BufTy).Contents (Elt F) → (⟨S8192, .f32⟩ : BufTy).Contents (Elt F)),
    binary main_v66 main_v68 main_v69 (subf : (⟨S8192, .f32⟩ : BufTy).Contents (Elt F) → (⟨S8192, .f32⟩ : BufTy).Contents (Elt F) → (⟨S8192, .f32⟩ : BufTy).Contents (Elt F)),
    nullary main_cst_17 (constant S_ .f32 0x00000000#32),
    binary main_v69 main_cst_17 main_v70 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_18 (constant S_ .f32 0x46000000#32),
    binary main_v70 main_cst_18 main_v71 (Host.divf : (⟨S_, .f32⟩ : BufTy).Contents (Elt F) → (⟨S_, .f32⟩ : BufTy).Contents (Elt F) → (⟨S_, .f32⟩ : BufTy).Contents (Elt F)) ]

/-- The program's 93 operations, in order. -/
abbrev ops : List (HloOp τ sig (Elt F)) := opsA ++ (opsB1 ++ (opsB2 ++ opsC))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub ..⟩
theorem opsB1_sub : (opsB1 : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub ..⟩
theorem opsB2_sub : (opsB2 : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., binary_bufs_sub ..⟩
theorem opsC_sub : (opsC : List (HloOp τ sig (Elt F))).Forall fun op => op.bufs ⊆ tcRefs τ sig :=
  ⟨nullary_bufs_sub .., nullary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., binary_bufs_sub .., nullary_bufs_sub .., binary_bufs_sub .., nullary_bufs_sub .., binary_bufs_sub ..⟩

/-- Every operation touches TensorCore references only. -/
theorem ops_sub : (ops : List (HloOp τ sig (Elt F))).Forall fun op => op.bufs ⊆ tcRefs τ sig :=
  List.forall_iff_forall_mem.mpr fun op h => by
    rcases List.mem_append.mp h with h | h
    · exact (List.forall_iff_forall_mem.mp opsA_sub) op h
    rcases List.mem_append.mp h with h | h
    · exact (List.forall_iff_forall_mem.mp opsB1_sub) op h
    rcases List.mem_append.mp h with h | h
    · exact (List.forall_iff_forall_mem.mp opsB2_sub) op h
    · exact (List.forall_iff_forall_mem.mp opsC_sub) op h

theorem opsA_fresh : ∀ op ∈ (opsA : List (HloOp τ sig (Elt F))), op.fresh = ∅ := by
  intro _ h; (repeat (cases h with | head => rfl | tail _ h => ?_)); exact nomatch h
theorem opsB1_fresh : ∀ op ∈ (opsB1 : List (HloOp τ sig (Elt F))), op.fresh = ∅ := by
  intro _ h; (repeat (cases h with | head => rfl | tail _ h => ?_)); exact nomatch h
theorem opsB2_fresh : ∀ op ∈ (opsB2 : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h

/-- No operation allocates a buffer. -/
theorem ops_fresh : ∀ op ∈ (ops : List (HloOp τ sig (Elt F))), op.fresh = ∅ := fun op h => by
  rcases List.mem_append.mp h with h | h
  · exact opsA_fresh op h
  rcases List.mem_append.mp h with h | h
  · exact opsB1_fresh op h
  rcases List.mem_append.mp h with h | h
  · exact opsB2_fresh op h
  · exact opsC_fresh op h

/-! ## The stretches, each read by itself -/

variable (V : Valuation τ sig (Elt F)) (x0 x1 : (⟨S4096x128, .f32⟩ : BufTy).Contents (Elt F))

set_option maxRecDepth 8192 in
/-- After the first stretch the matrix of inner products holds its stage's value of the two arguments. -/
theorem afterA_v18 : after opsA V (Proc.devRef .tc main_v18) = val_main_v18 (F := F) (V (Proc.devRef .tc main_arg0)) (V (Proc.devRef .tc main_arg1)) := by
  after_results <;> rfl
theorem afterA_arg0 : after opsA V (Proc.devRef .tc main_arg0) = V (Proc.devRef .tc main_arg0) := by after_results <;> rfl
theorem afterA_arg1 : after opsA V (Proc.devRef .tc main_arg1) = V (Proc.devRef .tc main_arg1) := by after_results <;> rfl

set_option maxRecDepth 8192 in
set_option maxHeartbeats 4000000 in
/-- After the second stretch the first gather holds its stage's value, where the matrix held its own. -/
theorem afterB1_v35 (h18 : V (Proc.devRef .tc main_v18) = val_main_v18 (F := F) x0 x1) :
    after opsB1 V (Proc.devRef .tc main_v35) = val_main_v35 (F := F) x0 x1 := by
  after_results
  rw [h18]; rfl
theorem afterB1_v19 : after opsB1 V (Proc.devRef .tc main_v19) = val_main_v19 (F := F) := by after_results <;> rfl
theorem afterB1_v18 : after opsB1 V (Proc.devRef .tc main_v18) = V (Proc.devRef .tc main_v18) := by after_results <;> rfl
theorem afterB1_arg0 : after opsB1 V (Proc.devRef .tc main_arg0) = V (Proc.devRef .tc main_arg0) := by after_results <;> rfl
theorem afterB1_arg1 : after opsB1 V (Proc.devRef .tc main_arg1) = V (Proc.devRef .tc main_arg1) := by after_results <;> rfl

set_option maxRecDepth 8192 in
set_option maxHeartbeats 4000000 in
/-- After the third stretch the positives hold their stage's value, where the matrix, the row iota and the first
    gather held theirs. -/
theorem afterB2_v52 (h18 : V (Proc.devRef .tc main_v18) = val_main_v18 (F := F) x0 x1) (h19 : V (Proc.devRef .tc main_v19) = val_main_v19 (F := F))
    (h35 : V (Proc.devRef .tc main_v35) = val_main_v35 (F := F) x0 x1) :
    after opsB2 V (Proc.devRef .tc main_v52) = val_main_v52 (F := F) x0 x1 := by
  after_results
  rw [h18, h19, h35]; rfl
theorem afterB2_v18 : after opsB2 V (Proc.devRef .tc main_v18) = V (Proc.devRef .tc main_v18) := by after_results <;> rfl
theorem afterB2_arg0 : after opsB2 V (Proc.devRef .tc main_arg0) = V (Proc.devRef .tc main_arg0) := by after_results <;> rfl
theorem afterB2_arg1 : after opsB2 V (Proc.devRef .tc main_arg1) = V (Proc.devRef .tc main_arg1) := by after_results <;> rfl

set_option maxRecDepth 8192 in
set_option maxHeartbeats 4000000 in
/-- After the last stretch the result holds the last stage's value, where the matrix and the positives held theirs. -/
theorem afterC_v71 (h18 : V (Proc.devRef .tc main_v18) = val_main_v18 (F := F) x0 x1) (h52 : V (Proc.devRef .tc main_v52) = val_main_v52 (F := F) x0 x1) :
    after opsC V (Proc.devRef .tc main_v71) = val_main_v71 (F := F) x0 x1 := by
  after_results
  rw [h18, h52]; rfl
theorem afterC_arg0 : after opsC V (Proc.devRef .tc main_arg0) = V (Proc.devRef .tc main_arg0) := by after_results <;> rfl
theorem afterC_arg1 : after opsC V (Proc.devRef .tc main_arg1) = V (Proc.devRef .tc main_arg1) := by after_results <;> rfl

/-! ## The whole line -/

/-- The fold over the whole line, at the result buffer: the last stage's value of the arguments. -/
theorem after_v71 : after ops V (Proc.devRef .tc main_v71) = val_main_v71 (F := F) (V (Proc.devRef .tc main_arg0)) (V (Proc.devRef .tc main_arg1)) := by
  unfold ops
  rw [after_append, after_append, after_append]
  have hA := afterA_v18 V
  have hB1 : after opsB1 (after opsA V) (Proc.devRef .tc main_v18) = val_main_v18 (F := F) (V (Proc.devRef .tc main_arg0)) (V (Proc.devRef .tc main_arg1)) :=
    (afterB1_v18 (after opsA V)).trans hA
  have hB2 : after opsB2 (after opsB1 (after opsA V)) (Proc.devRef .tc main_v18) = val_main_v18 (F := F) (V (Proc.devRef .tc main_arg0)) (V (Proc.devRef .tc main_arg1)) :=
    (afterB2_v18 _).trans hB1
  exact afterC_v71 _ _ _ hB2 (afterB2_v52 _ _ _ hB1 (afterB1_v19 _) (afterB1_v35 _ _ _ hA))

/-- No operation writes an argument. -/
theorem after_arg0 : after ops V (Proc.devRef .tc main_arg0) = V (Proc.devRef .tc main_arg0) := by
  unfold ops
  rw [after_append, after_append, after_append, afterC_arg0, afterB2_arg0, afterB1_arg0, afterA_arg0]
theorem after_arg1 : after ops V (Proc.devRef .tc main_arg1) = V (Proc.devRef .tc main_arg1) := by
  unfold ops
  rw [after_append, after_append, after_append, afterC_arg1, afterB2_arg1, afterB1_arg1, afterA_arg1]

/-- On every device, from any memory with zero counters: every weakly fair execution of the program terminates with
    the result at the last stage's value of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = val_main_v71 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v71).trans (after_v71 _), (h c main_arg0).trans (after_arg0 _), (h c main_arg1).trans (after_arg1 _)⟩)
    (run_seq scopedRefs_eq scopedSems_eq defs main (fun _ => ops) main_eq (fun _ => ops_sub) m ρ (fun _ => ops_fresh))

end Cert.ReferenceIdeal.RefRun

end
-- ==== Proof.RefUnit.lean ====
/-
  The reference's scaled rows and its final mean, read at an index.

  For each argument `x` (4096 rows of 128 entries) the reference squares `x`, sums each row from the zero word, keeps
  the sums as a column, takes the square root, the maximum with the floor `ε`, broadcasts the column back along the
  rows and divides `x` by it: at `(r, q)` that is `x (r, q) / max (sqrt (∑ k, x (r, k) * x (r, k))) ε`, entry `q` of
  the specification's `unitRow` of row `r`. The zero word is the extended real `0`, so the sum's initial value drops.

  Its last two operations take the mean of the 8192 row losses: their sum over every index from the zero word, a
  rank-0 result, divided by the word of 8192. A sum over the one-axis index set is the sum over `Fin 8192` through
  `ix1`, so the result is the specification's `mean`.
-/
import proofs.«140498_j17248588661028_2_alg».proof.Proof.ReadP
import proofs.«140498_j17248588661028_2_alg».proof.Proof.Spec

noncomputable section

namespace Cert.ReferenceIdeal.RefValue

open Idealize.ShloMosaic Idealize.ShloMosaic.ValueIdx
open Cert.ReferenceIdeal Cert.ReferenceIdeal.Read

/-- The composed index maps of the first argument's stages send `(r, q)` and the summed coordinate `k` to `(r, k)`. -/
theorem idx_row0 (r : Fin 4096) (q : Fin 128) (k : Fin 128) :
    idx_main_v1 (idx_main_v2 (idx_main_v6 (ix2 r q))) k = ix2 r k :=
  funext fun a => Fin.ext (by match a with | ⟨0, _⟩ => rfl | ⟨1, _⟩ => rfl)

/-- The composed index maps of the second argument's stages send `(r, q)` and the summed coordinate `k` to `(r, k)`. -/
theorem idx_row1 (r : Fin 4096) (q : Fin 128) (k : Fin 128) :
    idx_main_v9 (idx_main_v10 (idx_main_v14 (ix2 r q))) k = ix2 r k :=
  funext fun a => Fin.ext (by match a with | ⟨0, _⟩ => rfl | ⟨1, _⟩ => rfl)

/-- The reference's scaled first argument at `(r, q)` is entry `q` of row `r` scaled to unit length. -/
theorem ref_unit0 (x0 : (⟨S4096x128, .f32⟩ : BufTy).Contents (Elt Ideal)) (r : Fin 4096) (q : Fin 128) :
    val_main_v7 (F := Ideal) x0 (ix2 r q) = Cert.Spec.unitRow (fun k => x0 (ix2 r k)) q := by
  rw [val_main_v7_apply, val_main_v6_apply, val_main_v5_apply, val_main_v4_apply, val_main_cst_0_apply,
    val_main_v3_apply, val_main_v2_apply, val_main_v1_apply, val_main_cst_apply]
  simp only [val_main_v0_apply, idx_row0, Ideal.hostDivf_def, Ideal.maximumf_def, Ideal.hostUnary_sqrt_def,
    Ideal.ofBits_def, Ideal.mulf_def, Ideal.ofBits_zero_f32, zero_add]
  rfl

/-- The reference's scaled second argument at `(r, q)` is entry `q` of row `r` scaled to unit length. -/
theorem ref_unit1 (x1 : (⟨S4096x128, .f32⟩ : BufTy).Contents (Elt Ideal)) (r : Fin 4096) (q : Fin 128) :
    val_main_v15 (F := Ideal) x1 (ix2 r q) = Cert.Spec.unitRow (fun k => x1 (ix2 r k)) q := by
  rw [val_main_v15_apply, val_main_v14_apply, val_main_v13_apply, val_main_v12_apply, val_main_cst_2_apply,
    val_main_v11_apply, val_main_v10_apply, val_main_v9_apply, val_main_cst_1_apply]
  simp only [val_main_v8_apply, idx_row1, Ideal.hostDivf_def, Ideal.maximumf_def, Ideal.hostUnary_sqrt_def,
    Ideal.ofBits_def, Ideal.mulf_def, Ideal.ofBits_zero_f32, zero_add]
  rfl

/-- A sum over the index set of a one-axis shape is the sum over that axis's coordinates. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun j => j 0, fun _ => rfl, fun j => (eq_ix1 j).symm⟩ :
    Fin n ≃ (⟨1, ![n]⟩ : Shape).Idx) f).symm

/-- The reference's result is the specification's mean of its 8192 row losses. -/
theorem ref_mean (x0 x1 : (⟨S4096x128, .f32⟩ : BufTy).Contents (Elt Ideal)) :
    val_main_v71 (F := Ideal) x0 x1 = fun _ => Cert.Spec.mean (fun a => val_main_v69 (F := Ideal) x0 x1 (ix1 a)) := by
  funext i
  rw [val_main_v71_apply, val_main_v70_apply, val_main_cst_18_apply, val_main_cst_17_apply]
  generalize val_main_v69 (F := Ideal) x0 x1 = y
  rw [sum_idx1]
  rfl

end Cert.ReferenceIdeal.RefValue

end
-- ==== Proof.RefLoss.lean ====
/-
  The reference's vector of row losses, read at one row.

  With `z` the 8192 unit rows (the joined, normalised arguments), the reference forms the 8192 × 8192 array of inner
  products `z a · z b`, reads off it the similarity of each row with its partner (two gathers of one element per
  row, at the start indices `(r, r + 4096)` and `(r + 4096, r)`, joined end to end), masks the diagonal of the
  exponentials of the scaled similarities (one less the indicator of the diagonal), sums each row from the zero
  word, takes the logarithm and subtracts the scaled similarity with the partner. Read at row `a` this is the
  specification's row loss among the rows `z`.

  The facts used on the way: the temperature's word `0x3DCCCCCD` is exactly `13421773 / 2^27`, so dividing by it is
  multiplying by `134217728 / 13421773`; a 32-bit word below `2^31` read signed is itself, so the start indices
  (all below 8192) are neither negative nor clamped; `1 - 1 = 0` and `1 - 0 = 1` on the extended reals, so the mask
  is `0` on the diagonal and `1` off it.
-/
import proofs.«140498_j17248588661028_2_alg».proof.Proof.ReadP
import proofs.«140498_j17248588661028_2_alg».proof.Proof.Spec

noncomputable section

namespace Cert.ReferenceIdeal.RefValue

open Idealize.ShloMosaic Idealize.ShloMosaic.ValueIdx
open Cert.ReferenceIdeal Cert.ReferenceIdeal.Gen Cert.ReferenceIdeal.Read

/-! ## Words and small integers -/

/-- The word of the temperature is exactly 13421773 / 2^27. -/
private theorem word_tenth : Ideal.ofBits .f32 0x3DCCCCCD#32 = ((13421773 / 134217728 : ℝ) : EReal) := by
  simp [Ideal.ofBits, Ideal.ieee, -EReal.coe_mul]; norm_num

/-- The word `0x3F800000` is 1. -/
private theorem word_one : Ideal.ofBits .f32 0x3F800000#32 = 1 := by
  simp [Ideal.ofBits, Ideal.ieee, -EReal.coe_mul]; norm_num

/-- The zero word is 0. -/
private theorem word_zero : Ideal.ofBits .f32 0x00000000#32 = 0 := by
  simp [Ideal.ofBits, Ideal.ieee]

/-- Division by the temperature's word is the product with the specification's exact reciprocal. -/
private theorem div_word (x : EReal) : Ideal.div x (Ideal.ofBits .f32 0x3DCCCCCD#32) = x * Cert.Spec.invT := by
  rw [word_tenth, Ideal.div_coe (by norm_num)]
  unfold Cert.Spec.invT
  congr 2
  norm_num

/-- A 32-bit word below `2^31`, read signed, is itself. -/
private theorem toInt_small (n : Nat) (h : n < 2147483648) : (BitVec.ofNat 32 n).toInt = (n : Int) := by
  rw [BitVec.toInt_eq_toNat_cond, BitVec.toNat_ofNat]
  have : n % 2 ^ 32 = n := Nat.mod_eq_of_lt (by omega)
  rw [this]
  split <;> omega

/-- The sum of two words is the word of the sum. -/
private theorem ofNat_add (n m : Nat) : BitVec.ofNat 32 n + BitVec.ofNat 32 m = BitVec.ofNat 32 (n + m) := by
  exact (BitVec.ofNat_add n m).symm

/-- A word below `2^31` is not negative. -/
private theorem slt_zero_small (n : Nat) (h : n < 2147483648) : IntOp.cmpi .slt (BitVec.ofNat 32 n) 0#32 = 0#1 := by
  unfold IntOp.cmpi
  simp only [BitVec.slt, toInt_small n h]
  have h0 : ¬ ((n : Int) < (0#32 : BitVec 32).toInt) := by simp
  rw [decide_eq_false h0]
  rfl

/-- Two words below `2^32` (the first with 0 added) compare equal exactly when the numbers are equal. -/
private theorem eq_small (n m : Nat) (hn : n < 4294967296) (hm : m < 4294967296) :
    IntOp.cmpi .eq (IntOp.addi (BitVec.ofNat 32 n) 0#32) (BitVec.ofNat 32 m) = if n = m then 1#1 else 0#1 := by
  show BitVec.ofBool (BitVec.ofNat 32 n + 0#32 == BitVec.ofNat 32 m) = _
  rw [BitVec.add_zero]
  by_cases hnm : n = m
  · subst hnm; simp
  · rw [if_neg hnm]
    have : BitVec.ofNat 32 n ≠ BitVec.ofNat 32 m := by
      intro h
      have := congrArg BitVec.toNat h
      simp only [BitVec.toNat_ofNat] at this
      rw [Nat.mod_eq_of_lt (by omega), Nat.mod_eq_of_lt (by omega)] at this
      exact hnm this
    rw [beq_eq_false_iff_ne.mpr this]
    rfl

/-! ## The gather of one element per row, and the two joins, read at an index -/

/-- The gather of one element per row: row `r` of the result is the operand at the two start indices of row `r`,
    each read signed and clamped into the operand's range. -/
private theorem gather_pair_apply {α : Type} (x : S8192x8192.Idx → α) (idx : IVec S4096x2 32) (r : Fin 4096) :
    Host.gather gather_S8192x8192_S4096x2_S4096_n_01_n_n_01_1_11 x idx (ix1 r)
      = x (ix2 (⟨min (idx (ix2 r (0 : Fin 2))).toInt.toNat 8191, by omega⟩ : Fin 8192)
            (⟨min (idx (ix2 r (1 : Fin 2))).toInt.toNat 8191, by omega⟩ : Fin 8192)) := by
  unfold Host.gather
  congr 1
  funext a
  refine Fin.ext ?_
  show gather_S8192x8192_S4096x2_S4096_n_01_n_n_01_1_11.start (ix1 r) idx a
      + gather_S8192x8192_S4096x2_S4096_n_01_n_n_01_1_11.batchCoord (ix1 r) a
      + gather_S8192x8192_S4096x2_S4096_n_01_n_n_01_1_11.offCoord (ix1 r) a = _
  rw [GatherDims.batchCoord_eq_zero _ _ _ List.not_mem_nil]
  match a with
  | ⟨0, _⟩ =>
    rw [GatherDims.offCoord_eq_zero _ _ _ (fun h => ((GatherDims.mem_sKept _ _).mp h).1 List.mem_cons_self)]
    simp only [Nat.add_zero]
    unfold GatherDims.start
    rw [dif_pos (show (⟨0, by decide⟩ : Fin 2) ∈ gather_S8192x8192_S4096x2_S4096_n_01_n_n_01_1_11.startIndexMap by decide)]
    have hsi : gather_S8192x8192_S4096x2_S4096_n_01_n_n_01_1_11.siIdx (ix1 r)
        ⟨List.idxOf (⟨0, by decide⟩ : Fin 2) gather_S8192x8192_S4096x2_S4096_n_01_n_n_01_1_11.startIndexMap,
          List.idxOf_lt_length_iff.2 (by decide)⟩ = ix2 r (0 : Fin 2) := by
      funext b; refine Fin.ext ?_
      match b with
      | ⟨0, _⟩ => rfl
      | ⟨1, _⟩ => rfl
    rw [hsi]
    rfl
  | ⟨1, _⟩ =>
    rw [GatherDims.offCoord_eq_zero _ _ _ (fun h => ((GatherDims.mem_sKept _ _).mp h).1 (List.mem_cons_of_mem _ List.mem_cons_self))]
    simp only [Nat.add_zero]
    unfold GatherDims.start
    rw [dif_pos (show (⟨1, by decide⟩ : Fin 2) ∈ gather_S8192x8192_S4096x2_S4096_n_01_n_n_01_1_11.startIndexMap by decide)]
    have hsi : gather_S8192x8192_S4096x2_S4096_n_01_n_n_01_1_11.siIdx (ix1 r)
        ⟨List.idxOf (⟨1, by decide⟩ : Fin 2) gather_S8192x8192_S4096x2_S4096_n_01_n_n_01_1_11.startIndexMap,
          List.idxOf_lt_length_iff.2 (by decide)⟩ = ix2 r (1 : Fin 2) := by
      funext b; refine Fin.ext ?_
      match b with
      | ⟨0, _⟩ => rfl
      | ⟨1, _⟩ => rfl
    rw [hsi]
    rfl

/-- Two columns joined side by side, read in column 0: the first column. -/
private theorem columns_apply0 {α : Type} (u v : S4096x1.Idx → α) (r : Fin 4096) :
    concatenate S4096x2 1 [⟨S4096x1, u⟩, ⟨S4096x1, v⟩] concatenates_S4096x1_S4096x1_S4096x2_d1 (ix2 r (0 : Fin 2))
      = u (ix2 r (0 : Fin 1)) :=
  concatenate_pair_apply_left 1 u v concatenates_S4096x1_S4096x1_S4096x2_d1 (ix2 r (0 : Fin 2)) rfl (ix2 r (0 : Fin 1))
    (fun b => match b with | ⟨0, _⟩ => rfl | ⟨1, _⟩ => rfl)

/-- Two columns joined side by side, read in column 1: the second column. -/
private theorem columns_apply1 {α : Type} (u v : S4096x1.Idx → α) (r : Fin 4096) :
    concatenate S4096x2 1 [⟨S4096x1, u⟩, ⟨S4096x1, v⟩] concatenates_S4096x1_S4096x1_S4096x2_d1 (ix2 r (1 : Fin 2))
      = v (ix2 r (0 : Fin 1)) :=
  concatenate_pair_apply_right 1 u v concatenates_S4096x1_S4096x1_S4096x2_d1 (ix2 r (1 : Fin 2)) rfl rfl (ix2 r (0 : Fin 1))
    (fun b => match b with | ⟨0, _⟩ => fun _ => rfl | ⟨1, _⟩ => fun hb => absurd rfl hb)
    rfl

/-- Two vectors of 4096 joined end to end, read below 4096: the first vector. -/
private theorem halves_apply_lo {α : Type} (p q : S4096.Idx → α) (a : Fin 8192) (h : a.val < 4096) :
    concatenate S8192 0 [⟨S4096, p⟩, ⟨S4096, q⟩] concatenates_S4096_S4096_S8192_d0 (ix1 a)
      = p (ix1 (⟨a.val, h⟩ : Fin 4096)) :=
  concatenate_pair_apply_left 0 p q concatenates_S4096_S4096_S8192_d0 (ix1 a) rfl (ix1 (⟨a.val, h⟩ : Fin 4096))
    (fun b => match b with | ⟨0, _⟩ => rfl)

/-- Two vectors of 4096 joined end to end, read at or past 4096: the second vector, 4096 places back. -/
private theorem halves_apply_hi {α : Type} (p q : S4096.Idx → α) (a : Fin 8192) (h : 4096 ≤ a.val) :
    concatenate S8192 0 [⟨S4096, p⟩, ⟨S4096, q⟩] concatenates_S4096_S4096_S8192_d0 (ix1 a)
      = q (ix1 (⟨a.val - 4096, by omega⟩ : Fin 4096)) :=
  concatenate_pair_apply_right 0 p q concatenates_S4096_S4096_S8192_d0 (ix1 a) rfl rfl (ix1 (⟨a.val - 4096, by omega⟩ : Fin 4096))
    (fun b hb => absurd (Subsingleton.elim _ _) hb)
    (by show a.val - 4096 + 4096 = a.val; omega)

/-! ## A one-bit word as a float, and the mask's two values -/

/-- The one-bit word 1 converted to a float is the real 1. -/
private theorem bit_one_real : FloatOps.uitofp (F := Ideal) .f32 (1#1 : BitVec 1) = (1 : EReal) := by
  show (((1#1 : BitVec 1).toNat : ℝ) : EReal) = 1
  simp

/-- The one-bit word 0 converted to a float is the real 0. -/
private theorem bit_zero_real : FloatOps.uitofp (F := Ideal) .f32 (0#1 : BitVec 1) = (0 : EReal) := by
  show (((0#1 : BitVec 1).toNat : ℝ) : EReal) = 0
  simp

/-- On the extended reals `1 - 1 = 0` … -/
private theorem one_sub_one : (1 : EReal) - 1 = 0 := by
  have h : ((1 : ℝ) : EReal) - ((1 : ℝ) : EReal) = ((0 : ℝ) : EReal) := by rw [← EReal.coe_sub]; norm_num
  simpa using h

/-- … and `1 - 0 = 1`. -/
private theorem one_sub_zero : (1 : EReal) - 0 = 1 := by
  have h : ((1 : ℝ) : EReal) - ((0 : ℝ) : EReal) = ((1 : ℝ) : EReal) := by rw [← EReal.coe_sub]; norm_num
  simpa using h

/-- The gather at a row whose two start indices are the small words of `p` and `q`: the operand at `(p, q)`
    (a word below 2^31 reads as itself when read signed, and an index below 8192 is not clamped). -/
private theorem gather_pair_of_small {α : Type} (x : S8192x8192.Idx → α) (idx : IVec S4096x2 32) (r : Fin 4096) (p q : Fin 8192)
    (hp : idx (ix2 r (0 : Fin 2)) = BitVec.ofNat 32 p.val) (hq : idx (ix2 r (1 : Fin 2)) = BitVec.ofNat 32 q.val) :
    Host.gather gather_S8192x8192_S4096x2_S4096_n_01_n_n_01_1_11 x idx (ix1 r) = x (ix2 p q) := by
  rw [gather_pair_apply]
  congr 1
  funext d
  match d with
  | ⟨0, _⟩ =>
    refine Fin.ext ?_
    show min (idx (ix2 r (0 : Fin 2))).toInt.toNat 8191 = p.val
    rw [hp, toInt_small p.val (by omega)]
    omega
  | ⟨1, _⟩ =>
    refine Fin.ext ?_
    show min (idx (ix2 r (1 : Fin 2))).toInt.toNat 8191 = q.val
    rw [hq, toInt_small q.val (by omega)]
    omega

/-! ## The similarity, the mask and one term of the row sum -/

/-- Entry `(a, b)` of the product of the unit rows with their transpose: the inner product of rows `a` and `b`. -/
private theorem sim_apply (x0 x1 : (⟨S4096x128, .f32⟩ : BufTy).Contents (Elt Ideal)) (a b : Fin 8192) :
    val_main_v18 (F := Ideal) x0 x1 (ix2 a b)
      = ∑ k : Fin 128, val_main_v16 (F := Ideal) x0 x1 (ix2 a k) * val_main_v16 (F := Ideal) x0 x1 (ix2 b k) := by
  rw [val_main_v18_apply]
  refine Finset.sum_congr rfl fun k _ => ?_
  rw [val_main_v17_apply]
  have e1 : lidx_main_v18 (ix2 a b) k = ix2 a k :=
    funext fun d => Fin.ext (by match d with | ⟨0, _⟩ => rfl | ⟨1, _⟩ => rfl)
  have e2 : idx_main_v17 (ridx_main_v18 (ix2 a b) k) = ix2 b k :=
    funext fun d => Fin.ext (by match d with | ⟨0, _⟩ => rfl | ⟨1, _⟩ => rfl)
  rw [e1, e2]

/-- One less the indicator of the diagonal: 0 on the diagonal, 1 off it. -/
private theorem mask_apply (a b : Fin 8192) :
    val_main_v60 (F := Ideal) (ix2 a b) = if b = a then (0 : EReal) else 1 := by
  rw [val_main_v60_apply, val_main_v59_apply, val_main_cst_13_apply, val_main_v58_apply, val_main_v57_apply,
    val_main_v56_apply, val_main_v53_apply, val_main_v54_apply, val_main_v55_apply, val_main_c_12_apply]
  show Ideal.ofBits .f32 0x3F800000#32
      - FloatOps.uitofp (F := Ideal) .f32 (IntOp.cmpi .eq (IntOp.addi (BitVec.ofNat 32 a.val) 0#32) (BitVec.ofNat 32 b.val)) = _
  rw [eq_small a.val b.val (by omega) (by omega), word_one]
  by_cases h : b = a
  · subst h
    rw [if_pos rfl, if_pos rfl, bit_one_real, one_sub_one]
  · rw [if_neg h, if_neg (fun e => h (Fin.ext e.symm)), bit_zero_real, one_sub_zero]

/-- One term of row `a`'s sum: nothing on the diagonal, off it the exponential of the scaled similarity. -/
private theorem term_apply (x0 x1 : (⟨S4096x128, .f32⟩ : BufTy).Contents (Elt Ideal)) (a b : Fin 8192) :
    val_main_v64 (F := Ideal) x0 x1 (ix2 a b)
      = if b = a then (0 : EReal) else
          Ideal.exp ((∑ k : Fin 128, val_main_v16 (F := Ideal) x0 x1 (ix2 a k) * val_main_v16 (F := Ideal) x0 x1 (ix2 b k))
            * Cert.Spec.invT) := by
  rw [val_main_v64_apply, val_main_v63_apply, val_main_v62_apply, val_main_v61_apply, val_main_cst_14_apply,
    mask_apply, sim_apply]
  simp only [Ideal.mulf_def, Ideal.hostUnary_exp_def, Ideal.hostDivf_def, Ideal.ofBits_def]
  rw [div_word]
  by_cases h : b = a
  · rw [if_pos h, if_pos h, zero_mul]
  · rw [if_neg h, if_neg h, one_mul]

/-- Row `a`'s sum of the masked exponentials, from the zero word. -/
private theorem denom_apply (x0 x1 : (⟨S4096x128, .f32⟩ : BufTy).Contents (Elt Ideal)) (a : Fin 8192) :
    val_main_v65 (F := Ideal) x0 x1 (ix1 a)
      = ∑ b : Fin 8192, if b = a then (0 : EReal) else
          Ideal.exp ((∑ k : Fin 128, val_main_v16 (F := Ideal) x0 x1 (ix2 a k) * val_main_v16 (F := Ideal) x0 x1 (ix2 b k))
            * Cert.Spec.invT) := by
  rw [val_main_v65_apply, val_main_cst_15_apply]
  simp only [Ideal.ofBits_def]
  rw [word_zero, zero_add]
  refine Finset.sum_congr rfl fun b _ => ?_
  have e : idx_main_v65 (ix1 a) b = ix2 a b :=
    funext fun d => Fin.ext (by match d with | ⟨0, _⟩ => rfl | ⟨1, _⟩ => rfl)
  rw [e, term_apply]

/-! ## The two arrays of start indices -/

/-- The row number, normalised as an index into 8192 rows: itself. -/
private theorem v26_apply (r : Fin 4096) : val_main_v26 (F := Ideal) (ix1 r) = BitVec.ofNat 32 r.val := by
  rw [val_main_v26_apply, val_main_v23_apply, val_main_v19_apply, val_main_v22_apply, val_main_c_3_apply]
  show Scalar.select (IntOp.cmpi .slt (BitVec.ofNat 32 r.val) 0#32) _ (BitVec.ofNat 32 r.val) = _
  rw [slt_zero_small r.val (by omega), select_zero]

/-- The row number plus 4096, normalised: itself. -/
private theorem v31_apply (r : Fin 4096) : val_main_v31 (F := Ideal) (ix1 r) = BitVec.ofNat 32 (r.val + 4096) := by
  rw [val_main_v31_apply, val_main_v28_apply, val_main_v21_apply, val_main_v19_apply, val_main_v20_apply,
    val_main_c_apply, val_main_v27_apply, val_main_c_5_apply]
  have e : IntOp.addi (BitVec.ofNat 32 r.val) 4096#32 = BitVec.ofNat 32 (r.val + 4096) := ofNat_add r.val 4096
  show Scalar.select (IntOp.cmpi .slt (IntOp.addi (BitVec.ofNat 32 r.val) 4096#32) 0#32) _
      (IntOp.addi (BitVec.ofNat 32 r.val) 4096#32) = _
  rw [e, slt_zero_small _ (by omega), select_zero]

/-- The same two index vectors, built a second time. -/
private theorem v42_apply (r : Fin 4096) : val_main_v42 (F := Ideal) (ix1 r) = BitVec.ofNat 32 (r.val + 4096) := by
  rw [val_main_v42_apply, val_main_v39_apply, val_main_v37_apply, val_main_v19_apply, val_main_v36_apply,
    val_main_c_7_apply, val_main_v38_apply, val_main_c_8_apply]
  have e : IntOp.addi (BitVec.ofNat 32 r.val) 4096#32 = BitVec.ofNat 32 (r.val + 4096) := ofNat_add r.val 4096
  show Scalar.select (IntOp.cmpi .slt (IntOp.addi (BitVec.ofNat 32 r.val) 4096#32) 0#32) _
      (IntOp.addi (BitVec.ofNat 32 r.val) 4096#32) = _
  rw [e, slt_zero_small _ (by omega), select_zero]

/-- The row number, normalised a second time: itself. -/
private theorem v47_apply (r : Fin 4096) : val_main_v47 (F := Ideal) (ix1 r) = BitVec.ofNat 32 r.val := by
  rw [val_main_v47_apply, val_main_v44_apply, val_main_v19_apply, val_main_v43_apply, val_main_c_10_apply]
  show Scalar.select (IntOp.cmpi .slt (BitVec.ofNat 32 r.val) 0#32) _ (BitVec.ofNat 32 r.val) = _
  rw [slt_zero_small r.val (by omega), select_zero]

/-- The first array of start indices: row `r` holds `(r, r + 4096)`. -/
private theorem starts_fwd_0 (r : Fin 4096) : val_main_v34 (F := Ideal) (ix2 r (0 : Fin 2)) = BitVec.ofNat 32 r.val := by
  unfold val_main_v34
  rw [columns_apply0, val_main_v32_apply]
  have e : idx_main_v32 (ix2 r (0 : Fin 1)) = ix1 r := funext fun d => by match d with | ⟨0, _⟩ => rfl
  rw [e, v26_apply]

/-- Its second column. -/
private theorem starts_fwd_1 (r : Fin 4096) : val_main_v34 (F := Ideal) (ix2 r (1 : Fin 2)) = BitVec.ofNat 32 (r.val + 4096) := by
  unfold val_main_v34
  rw [columns_apply1, val_main_v33_apply]
  have e : idx_main_v33 (ix2 r (0 : Fin 1)) = ix1 r := funext fun d => by match d with | ⟨0, _⟩ => rfl
  rw [e, v31_apply]

/-- The second array of start indices: row `r` holds `(r + 4096, r)`. -/
private theorem starts_bwd_0 (r : Fin 4096) : val_main_v50 (F := Ideal) (ix2 r (0 : Fin 2)) = BitVec.ofNat 32 (r.val + 4096) := by
  unfold val_main_v50
  rw [columns_apply0, val_main_v48_apply]
  have e : idx_main_v48 (ix2 r (0 : Fin 1)) = ix1 r := funext fun d => by match d with | ⟨0, _⟩ => rfl
  rw [e, v42_apply]

/-- Its second column. -/
private theorem starts_bwd_1 (r : Fin 4096) : val_main_v50 (F := Ideal) (ix2 r (1 : Fin 2)) = BitVec.ofNat 32 r.val := by
  unfold val_main_v50
  rw [columns_apply1, val_main_v49_apply]
  have e : idx_main_v49 (ix2 r (0 : Fin 1)) = ix1 r := funext fun d => by match d with | ⟨0, _⟩ => rfl
  rw [e, v47_apply]

/-! ## The similarity of each row with its partner -/

/-- Entry `a` of the joined gathers: the similarity of row `a` with the row 4096 further on, cyclically. -/
private theorem pos_apply (x0 x1 : (⟨S4096x128, .f32⟩ : BufTy).Contents (Elt Ideal)) (a : Fin 8192) :
    val_main_v52 (F := Ideal) x0 x1 (ix1 a)
      = ∑ k : Fin 128, val_main_v16 (F := Ideal) x0 x1 (ix2 a k)
          * val_main_v16 (F := Ideal) x0 x1 (ix2 (Cert.Spec.partner a) k) := by
  unfold val_main_v52
  by_cases h : a.val < 4096
  · rw [halves_apply_lo _ _ a h]
    unfold val_main_v35
    rw [gather_pair_of_small _ _ (⟨a.val, h⟩ : Fin 4096) a (⟨a.val + 4096, by omega⟩ : Fin 8192)
      (starts_fwd_0 _) (starts_fwd_1 _), sim_apply]
    have ep : Cert.Spec.partner a = (⟨a.val + 4096, by omega⟩ : Fin 8192) := by
      unfold Cert.Spec.partner; rw [dif_pos h]
    rw [ep]
  · have h' : 4096 ≤ a.val := Nat.le_of_not_lt h
    rw [halves_apply_hi _ _ a h']
    unfold val_main_v51
    have hp : val_main_v50 (F := Ideal) (ix2 (⟨a.val - 4096, by omega⟩ : Fin 4096) (0 : Fin 2)) = BitVec.ofNat 32 a.val := by
      rw [starts_bwd_0]; congr 1; show a.val - 4096 + 4096 = a.val; omega
    rw [gather_pair_of_small _ _ (⟨a.val - 4096, by omega⟩ : Fin 4096) a (⟨a.val - 4096, by omega⟩ : Fin 8192)
      hp (starts_bwd_1 _), sim_apply]
    have ep : Cert.Spec.partner a = (⟨a.val - 4096, by omega⟩ : Fin 8192) := by
      unfold Cert.Spec.partner; rw [dif_neg h]
    rw [ep]

/-! ## The row loss -/

/-- The reference's vector of row losses, read at row `a`: the specification's row loss among the unit rows. -/
theorem ref_rowLoss (x0 x1 : (⟨S4096x128, .f32⟩ : BufTy).Contents (Elt Ideal)) (a : Fin 8192) :
    val_main_v69 (F := Ideal) x0 x1 (ix1 a)
      = Cert.Spec.rowLoss (fun b k => val_main_v16 (F := Ideal) x0 x1 (ix2 b k)) a := by
  rw [val_main_v69_apply, val_main_v66_apply, val_main_v68_apply, val_main_v67_apply, val_main_cst_16_apply,
    denom_apply, pos_apply]
  simp only [Ideal.subf_def, Ideal.hostUnary_log_def, Ideal.hostDivf_def, Ideal.ofBits_def]
  rw [div_word]
  unfold Cert.Spec.rowLoss Cert.Spec.rowLossAt
  rfl

end Cert.ReferenceIdeal.RefValue

end
-- ==== Proof.RefValue.lean ====
/-
  What the idealized reference returns, on the extended reals, is the same function of its two arguments: the mean of
  the row losses among their scaled rows.

  Its result is the mean of its 8192 row losses; row `a`'s is the row loss among the rows of its joined array; that
  array is the join of its two arrays of scaled rows — the same join the kernel's program makes of equal arrays.
-/
import proofs.«140498_j17248588661028_2_alg».proof.Proof.ReadP
import proofs.«140498_j17248588661028_2_alg».proof.Proof.RefUnit
import proofs.«140498_j17248588661028_2_alg».proof.Proof.RefLoss
import proofs.«140498_j17248588661028_2_alg».proof.Proof.Result

noncomputable section

namespace Cert.ReferenceIdeal.RefValue

open Cert.ReferenceIdeal Cert.ReferenceIdeal.Read
open Idealize.ShloMosaic Idealize.ShloMosaic.ValueIdx
open Cert.KernelIdeal.Run (unitRows rowsOf rowLosses result)

/-- The reference's first array of scaled rows. -/
theorem unit0_eq (x0 : (⟨S4096x128, .f32⟩ : BufTy).Contents (Elt Ideal)) : val_main_v7 (F := Ideal) x0 = unitRows x0 := by
  funext j
  obtain ⟨r, q, rfl⟩ : ∃ (r : Fin 4096) (q : Fin 128), j = ix2 r q := ⟨j 0, j 1, eq_ix2 j⟩
  exact ref_unit0 x0 r q

/-- The reference's second array of scaled rows. -/
theorem unit1_eq (x1 : (⟨S4096x128, .f32⟩ : BufTy).Contents (Elt Ideal)) : val_main_v15 (F := Ideal) x1 = unitRows x1 := by
  funext j
  obtain ⟨r, q, rfl⟩ : ∃ (r : Fin 4096) (q : Fin 128), j = ix2 r q := ⟨j 0, j 1, eq_ix2 j⟩
  exact ref_unit1 x1 r q

/-- The reference's joined array is the join of the scaled rows. -/
theorem rows_eq (x0 x1 : (⟨S4096x128, .f32⟩ : BufTy).Contents (Elt Ideal)) : val_main_v16 (F := Ideal) x0 x1 = rowsOf x0 x1 := by
  unfold val_main_v16 rowsOf
  rw [unit0_eq, unit1_eq]

/-- The reference's result is `result` of its arguments. -/
theorem ref_value (x0 x1 : (⟨S4096x128, .f32⟩ : BufTy).Contents (Elt Ideal)) : val_main_v71 (F := Ideal) x0 x1 = result x0 x1 := by
  rw [ref_mean]
  unfold result
  funext _
  refine congrArg Cert.Spec.mean (funext fun a => ?_)
  rw [ref_rowLoss, rows_eq]
  rfl

end Cert.ReferenceIdeal.RefValue

end
-- ==== Proof.lean ====
/-
  The certificate: three frames, the idealization's two named constants, and the equality of the two idealized
  programs' results on the extended reals.

  The program computes a contrastive loss of two batches of 4096 rows of 128 entries: each row is scaled to unit
  length (its norm kept at or above the f32 word nearest 1e-12), the 8192 scaled rows are compared pairwise by their
  inner products, and row `a`'s loss is `log (∑ b ≠ a, exp (sim a b · c)) − sim a (partner a) · c`; the result is the
  mean of the row losses. The kernel's program does this with two scaling kernels, a join, a loss kernel over tiles of
  128 rows against all 8192 rows, a sum and a quotient; the reference with one whole matrix product, two gathers and a
  masked row sum. The kernel multiplies by the f32 word 10.0 where the reference divides by the f32 word nearest 0.1;
  the idealized kernel reads that word, by name, as the exact reciprocal `134217728 / 13421773` of the reference's
  divisor `13421773 / 2^27`, and the two results are then one function of the arguments (`result`).

  Frames: each kernel region's body is run symbolically and the regions and host stretches are chained over named
  contents of the core's buffers; the loss kernel reads one array through two windows, holding half of it for each.
  The reference is a straight line of host operations, run in four stretches and read at its result.
-/
import proofs.«140498_j17248588661028_2_alg».proof.Defs
import proofs.«140498_j17248588661028_2_alg».proof.Proof.Gen.Kernel
import proofs.«140498_j17248588661028_2_alg».proof.Proof.Gen.KernelIdeal
import proofs.«140498_j17248588661028_2_alg».proof.Proof.Gen.ReferenceIdeal
import proofs.«140498_j17248588661028_2_alg».proof.Proof.Gen.Pre_finite_inputs
import proofs.«140498_j17248588661028_2_alg».proof.Proof.KRun
import proofs.«140498_j17248588661028_2_alg».proof.Proof.KValue
import proofs.«140498_j17248588661028_2_alg».proof.Proof.RefRun
import proofs.«140498_j17248588661028_2_alg».proof.Proof.RefValue
import Idealize.ShloMosaic.PureOps.IdealRules

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Run.frame m ρ

/-- So does the idealized program. -/
theorem frame_ki : Cert.frame_KernelIdeal := fun m ρ _ => Cert.KernelIdeal.Run.frame m ρ

/-- The idealized reference runs and leaves its arguments unchanged: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The two places the kernel multiplies by the reciprocal of the temperature: the named word denotes
    `134217728 / 13421773`, the exact reciprocal of the f32 word nearest 0.1. -/
theorem preserves : Cert.preserves_Kernel_KernelIdeal :=
  ⟨IdealRules.named_const.statement Cert.KernelIdeal.κ "inv_t" .f32 0x41200000#32 ((134217728 / 13421773 : ℝ) : EReal) rfl,
   IdealRules.named_const.statement Cert.KernelIdeal.κ "inv_t" .f32 0x41200000#32 ((134217728 / 13421773 : ℝ) : EReal) rfl⟩

/-- On the extended reals both programs end with the mean of the row losses among the scaled rows of the
    arguments, from memories that agree on the arguments. -/
theorem algebraic : Cert.algebraic_KernelIdeal_ReferenceIdeal := by
  intro m ρ m' ρ' _ hagree
  refine ⟨fun c => Cert.KernelIdeal.Run.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Run.run_value m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  exact Cert.ReferenceIdeal.RefValue.ref_value _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
